-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S26x16384x128 : Shape := ⟨3, ![26, 16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S26x16384x128 : S_.BroadcastsInDim S26x16384x128 (![] : Fin 0 → Fin S26x16384x128.rank)
  reducesTo_S26x16384x128_S_d0_1_2 : S26x16384x128.ReducesTo [0, 1, 2] S_

variable [Facts]

def fn {F : FTy → Type} [FloatOps F] (main_arg0 : FVec F S16384x128 .f32) (main_arg1 : FVec F S26x16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S26x16384x128 .f32 := Host.absf main_arg1
  let main_cst_0 : FVec F S_ .f32 := constant S_ .f32 0x7F800000#32
  let main_v5 : FVec F S26x16384x128 .f32 := broadcastInDim S26x16384x128 ![] bcast_S_S26x16384x128 main_cst_0
  let main_v6 : IVec S26x16384x128 1 := cmpf .olt main_v4 main_v5
  let main_c_1 : IVec S_ 1 := constantI S_ 1 1#1
  let main_v7 : IVec S_ 1 := (fun x v => Host.reduce IntOp.andi x v reducesTo_S26x16384x128_S_d0_1_2 h_S_) main_v6 main_c_1
  let main_v8 : IVec S_ 1 := andi main_v3 main_v7
  main_v8
-- ==== Kernel.lean ====
abbrev S16384x128 : Shape := ⟨2, ![16384, 128]⟩
abbrev S26x16384x128 : Shape := ⟨3, ![26, 16384, 128]⟩
abbrev S16384x506 : Shape := ⟨2, ![16384, 506]⟩
abbrev S512x128 : Shape := ⟨2, ![512, 128]⟩
abbrev S26x512x128 : Shape := ⟨3, ![26, 512, 128]⟩
abbrev S512x506 : Shape := ⟨2, ![512, 506]⟩
abbrev S378x512 : Shape := ⟨2, ![378, 512]⟩
abbrev S128x512 : Shape := ⟨2, ![128, 512]⟩
abbrev S1x512x128 : Shape := ⟨3, ![1, 512, 128]⟩
abbrev S512 : Shape := ⟨1, ![512]⟩
abbrev S1x512 : Shape := ⟨2, ![1, 512]⟩
abbrev S512x378 : Shape := ⟨2, ![512, 378]⟩

abbrev nBuf : Space → Nat
  | .hbm => 3
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S26x16384x128, .f32⟩
  | .hbm, ⟨2, _⟩ => ⟨S16384x506, .f32⟩
  | .local _ .vmem, ⟨0, _⟩ => ⟨S512x128, .f32⟩
  | .local _ .vmem, ⟨1, _⟩ => ⟨S512x128, .f32⟩
  | .local _ .vmem, ⟨2, _⟩ => ⟨S26x512x128, .f32⟩
  | .local _ .vmem, ⟨3, _⟩ => ⟨S26x512x128, .f32⟩
  | .local _ .vmem, ⟨4, _⟩ => ⟨S512x506, .f32⟩
  | .local _ .vmem, ⟨5, _⟩ => ⟨S512x506, .f32⟩
  | .local _ .vmem, ⟨6, _⟩ => ⟨S378x512, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S26x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x506 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S26x512x128_S1x512x128_0_0_0 : ∀ a, (![0, 0, 0] : Fin 3 → Nat) a + S1x512x128.size a ≤ S26x512x128.size a
  h_S1x512x128 : 0 < S1x512x128.numel
  shapeCasts_S1x512x128_S512x128 : S1x512x128.ShapeCasts S512x128
  inb_S26x512x128_S1x512x128_1_0_0 : ∀ a, (![1, 0, 0] : Fin 3 → Nat) a + S1x512x128.size a ≤ S26x512x128.size a
  inb_S26x512x128_S1x512x128_2_0_0 : ∀ a, (![2, 0, 0] : Fin 3 → Nat) a + S1x512x128.size a ≤ S26x512x128.size a
  inb_S26x512x128_S1x512x128_3_0_0 : ∀ a, (![3, 0, 0] : Fin 3 → Nat) a + S1x512x128.size a ≤ S26x512x128.size a
  inb_S26x512x128_S1x512x128_4_0_0 : ∀ a, (![4, 0, 0] : Fin 3 → Nat) a + S1x512x128.size a ≤ S26x512x128.size a
  inb_S26x512x128_S1x512x128_5_0_0 : ∀ a, (![5, 0, 0] : Fin 3 → Nat) a + S1x512x128.size a ≤ S26x512x128.size a
  inb_S26x512x128_S1x512x128_6_0_0 : ∀ a, (![6, 0, 0] : Fin 3 → Nat) a + S1x512x128.size a ≤ S26x512x128.size a
  inb_S26x512x128_S1x512x128_7_0_0 : ∀ a, (![7, 0, 0] : Fin 3 → Nat) a + S1x512x128.size a ≤ S26x512x128.size a
  inb_S26x512x128_S1x512x128_8_0_0 : ∀ a, (![8, 0, 0] : Fin 3 → Nat) a + S1x512x128.size a ≤ S26x512x128.size a
  inb_S26x512x128_S1x512x128_9_0_0 : ∀ a, (![9, 0, 0] : Fin 3 → Nat) a + S1x512x128.size a ≤ S26x512x128.size a
  inb_S26x512x128_S1x512x128_10_0_0 : ∀ a, (![10, 0, 0] : Fin 3 → Nat) a + S1x512x128.size a ≤ S26x512x128.size a
  inb_S26x512x128_S1x512x128_11_0_0 : ∀ a, (![11, 0, 0] : Fin 3 → Nat) a + S1x512x128.size a ≤ S26x512x128.size a
  inb_S26x512x128_S1x512x128_12_0_0 : ∀ a, (![12, 0, 0] : Fin 3 → Nat) a + S1x512x128.size a ≤ S26x512x128.size a
  inb_S26x512x128_S1x512x128_13_0_0 : ∀ a, (![13, 0, 0] : Fin 3 → Nat) a + S1x512x128.size a ≤ S26x512x128.size a
  inb_S26x512x128_S1x512x128_14_0_0 : ∀ a, (![14, 0, 0] : Fin 3 → Nat) a + S1x512x128.size a ≤ S26x512x128.size a
  inb_S26x512x128_S1x512x128_15_0_0 : ∀ a, (![15, 0, 0] : Fin 3 → Nat) a + S1x512x128.size a ≤ S26x512x128.size a
  inb_S26x512x128_S1x512x128_16_0_0 : ∀ a, (![16, 0, 0] : Fin 3 → Nat) a + S1x512x128.size a ≤ S26x512x128.size a
  inb_S26x512x128_S1x512x128_17_0_0 : ∀ a, (![17, 0, 0] : Fin 3 → Nat) a + S1x512x128.size a ≤ S26x512x128.size a
  inb_S26x512x128_S1x512x128_18_0_0 : ∀ a, (![18, 0, 0] : Fin 3 → Nat) a + S1x512x128.size a ≤ S26x512x128.size a
  inb_S26x512x128_S1x512x128_19_0_0 : ∀ a, (![19, 0, 0] : Fin 3 → Nat) a + S1x512x128.size a ≤ S26x512x128.size a
  inb_S26x512x128_S1x512x128_20_0_0 : ∀ a, (![20, 0, 0] : Fin 3 → Nat) a + S1x512x128.size a ≤ S26x512x128.size a
  inb_S26x512x128_S1x512x128_21_0_0 : ∀ a, (![21, 0, 0] : Fin 3 → Nat) a + S1x512x128.size a ≤ S26x512x128.size a
  inb_S26x512x128_S1x512x128_22_0_0 : ∀ a, (![22, 0, 0] : Fin 3 → Nat) a + S1x512x128.size a ≤ S26x512x128.size a
  inb_S26x512x128_S1x512x128_23_0_0 : ∀ a, (![23, 0, 0] : Fin 3 → Nat) a + S1x512x128.size a ≤ S26x512x128.size a
  inb_S26x512x128_S1x512x128_24_0_0 : ∀ a, (![24, 0, 0] : Fin 3 → Nat) a + S1x512x128.size a ≤ S26x512x128.size a
  inb_S26x512x128_S1x512x128_25_0_0 : ∀ a, (![25, 0, 0] : Fin 3 → Nat) a + S1x512x128.size a ≤ S26x512x128.size a
  reduces_S128x512_S512 : S128x512.Reduces [0] S512
  shapeCasts_S512_S1x512 : S512.ShapeCasts S1x512
  shapeCasts_S1x512_S512 : S1x512.ShapeCasts S512
  inb_S378x512_S1x512_0_0 : ∀ a, (![0, 0] : Fin 2 → Nat) a + S1x512.size a ≤ S378x512.size a
  h_S1x512 : 0 < S1x512.numel
  inb_S378x512_S1x512_1_0 : ∀ a, (![1, 0] : Fin 2 → Nat) a + S1x512.size a ≤ S378x512.size a
  inb_S378x512_S1x512_2_0 : ∀ a, (![2, 0] : Fin 2 → Nat) a + S1x512.size a ≤ S378x512.size a
  inb_S378x512_S1x512_3_0 : ∀ a, (![3, 0] : Fin 2 → Nat) a + S1x512.size a ≤ S378x512.size a
  inb_S378x512_S1x512_4_0 : ∀ a, (![4, 0] : Fin 2 → Nat) a + S1x512.size a ≤ S378x512.size a
  inb_S378x512_S1x512_5_0 : ∀ a, (![5, 0] : Fin 2 → Nat) a + S1x512.size a ≤ S378x512.size a
  inb_S378x512_S1x512_6_0 : ∀ a, (![6, 0] : Fin 2 → Nat) a + S1x512.size a ≤ S378x512.size a
  inb_S378x512_S1x512_7_0 : ∀ a, (![7, 0] : Fin 2 → Nat) a + S1x512.size a ≤ S378x512.size a
  inb_S378x512_S1x512_8_0 : ∀ a, (![8, 0] : Fin 2 → Nat) a + S1x512.size a ≤ S378x512.size a
  inb_S378x512_S1x512_9_0 : ∀ a, (![9, 0] : Fin 2 → Nat) a + S1x512.size a ≤ S378x512.size a
  inb_S378x512_S1x512_10_0 : ∀ a, (![10, 0] : Fin 2 → Nat) a + S1x512.size a ≤ S378x512.size a
  inb_S378x512_S1x512_11_0 : ∀ a, (![11, 0] : Fin 2 → Nat) a + S1x512.size a ≤ S378x512.size a
  inb_S378x512_S1x512_12_0 : ∀ a, (![12, 0] : Fin 2 → Nat) a + S1x512.size a ≤ S378x512.size a
  inb_S378x512_S1x512_13_0 : ∀ a, (![13, 0] : Fin 2 → Nat) a + S1x512.size a ≤ S378x512.size a
  inb_S378x512_S1x512_14_0 : ∀ a, (![14, 0] : Fin 2 → Nat) a + S1x512.size a ≤ S378x512.size a
  inb_S378x512_S1x512_15_0 : ∀ a, (![15, 0] : Fin 2 → Nat) a + S1x512.size a ≤ S378x512.size a
  inb_S378x512_S1x512_16_0 : ∀ a, (![16, 0] : Fin 2 → Nat) a + S1x512.size a ≤ S378x512.size a
  inb_S378x512_S1x512_17_0 : ∀ a, (![17, 0] : Fin 2 → Nat) a + S1x512.size a ≤ S378x512.size a
  inb_S378x512_S1x512_18_0 : ∀ a, (![18, 0] : Fin 2 → Nat) a + S1x512.size a ≤ S378x512.size a
  inb_S378x512_S1x512_19_0 : ∀ a, (![19, 0] : Fin 2 → Nat) a + S1x512.size a ≤ S378x512.size a
  inb_S378x512_S1x512_20_0 : ∀ a, (![20, 0] : Fin 2 → Nat) a + S1x512.size a ≤ S378x512.size a
  inb_S378x512_S1x512_21_0 : ∀ a, (![21, 0] : Fin 2 → Nat) a + S1x512.size a ≤ S378x512.size a
  inb_S378x512_S1x512_22_0 : ∀ a, (![22, 0] : Fin 2 → Nat) a + S1x512.size a ≤ S378x512.size a
  inb_S378x512_S1x512_23_0 : ∀ a, (![23, 0] : Fin 2 → Nat) a + S1x512.size a ≤ S378x512.size a
  inb_S378x512_S1x512_24_0 : ∀ a, (![24, 0] : Fin 2 → Nat) a + S1x512.size a ≤ S378x512.size a
  inb_S378x512_S1x512_25_0 : ∀ a, (![25, 0] : Fin 2 → Nat) a + S1x512.size a ≤ S378x512.size a
  inb_S378x512_S1x512_26_0 : ∀ a, (![26, 0] : Fin 2 → Nat) a + S1x512.size a ≤ S378x512.size a
  inb_S378x512_S1x512_27_0 : ∀ a, (![27, 0] : Fin 2 → Nat) a + S1x512.size a ≤ S378x512.size a
  inb_S378x512_S1x512_28_0 : ∀ a, (![28, 0] : Fin 2 → Nat) a + S1x512.size a ≤ S378x512.size a
  inb_S378x512_S1x512_29_0 : ∀ a, (![29, 0] : Fin 2 → Nat) a + S1x512.size a ≤ S378x512.size a
  inb_S378x512_S1x512_30_0 : ∀ a, (![30, 0] : Fin 2 → Nat) a + S1x512.size a ≤ S378x512.size a
  inb_S378x512_S1x512_31_0 : ∀ a, (![31, 0] : Fin 2 → Nat) a + S1x512.size a ≤ S378x512.size a
  inb_S378x512_S1x512_32_0 : ∀ a, (![32, 0] : Fin 2 → Nat) a + S1x512.size a ≤ S378x512.size a
  inb_S378x512_S1x512_33_0 : ∀ a, (![33, 0] : Fin 2 → Nat) a + S1x512.size a ≤ S378x512.size a
  inb_S378x512_S1x512_34_0 : ∀ a, (![34, 0] : Fin 2 → Nat) a + S1x512.size a ≤ S378x512.size a
  inb_S378x512_S1x512_35_0 : ∀ a, (![35, 0] : Fin 2 → Nat) a + S1x512.size a ≤ S378x512.size a
  inb_S378x512_S1x512_36_0 : ∀ a, (![36, 0] : Fin 2 → Nat) a + S1x512.size a ≤ S378x512.size a
  inb_S378x512_S1x512_37_0 : ∀ a, (![37, 0] : Fin 2 → Nat) a + S1x512.size a ≤ S378x512.size a
  inb_S378x512_S1x512_38_0 : ∀ a, (![38, 0] : Fin 2 → Nat) a + S1x512.size a ≤ S378x512.size a
  inb_S378x512_S1x512_39_0 : ∀ a, (![39, 0] : Fin 2 → Nat) a + S1x512.size a ≤ S378x512.size a
  inb_S378x512_S1x512_40_0 : ∀ a, (![40, 0] : Fin 2 → Nat) a + S1x512.size a ≤ S378x512.size a
  inb_S378x512_S1x512_41_0 : ∀ a, (![41, 0] : Fin 2 → Nat) a + S1x512.size a ≤ S378x512.size a
  inb_S378x512_S1x512_42_0 : ∀ a, (![42, 0] : Fin 2 → Nat) a + S1x512.size a ≤ S378x512.size a
  inb_S378x512_S1x512_43_0 : ∀ a, (![43, 0] : Fin 2 → Nat) a + S1x512.size a ≤ S378x512.size a
  inb_S378x512_S1x512_44_0 : ∀ a, (![44, 0] : Fin 2 → Nat) a + S1x512.size a ≤ S378x512.size a
  inb_S378x512_S1x512_45_0 : ∀ a, (![45, 0] : Fin 2 → Nat) a + S1x512.size a ≤ S378x512.size a
  inb_S378x512_S1x512_46_0 : ∀ a, (![46, 0] : Fin 2 → Nat) a + S1x512.size a ≤ S378x512.size a
  inb_S378x512_S1x512_47_0 : ∀ a, (![47, 0] : Fin 2 → Nat) a + S1x512.size a ≤ S378x512.size a
  inb_S378x512_S1x512_48_0 : ∀ a, (![48, 0] : Fin 2 → Nat) a + S1x512.size a ≤ S378x512.size a
  inb_S378x512_S1x512_49_0 : ∀ a, (![49, 0] : Fin 2 → Nat) a + S1x512.size a ≤ S378x512.size a
  inb_S378x512_S1x512_50_0 : ∀ a, (![50, 0] : Fin 2 → Nat) a + S1x512.size a ≤ S378x512.size a
  inb_S378x512_S1x512_51_0 : ∀ a, (![51, 0] : Fin 2 → Nat) a + S1x512.size a ≤ S378x512.size a
  inb_S378x512_S1x512_52_0 : ∀ a, (![52, 0] : Fin 2 → Nat) a + S1x512.size a ≤ S378x512.size a
  inb_S378x512_S1x512_53_0 : ∀ a, (![53, 0] : Fin 2 → Nat) a + S1x512.size a ≤ S378x512.size a
  inb_S378x512_S1x512_54_0 : ∀ a, (![54, 0] : Fin 2 → Nat) a + S1x512.size a ≤ S378x512.size a
  inb_S378x512_S1x512_55_0 : ∀ a, (![55, 0] : Fin 2 → Nat) a + S1x512.size a ≤ S378x512.size a
  inb_S378x512_S1x512_56_0 : ∀ a, (![56, 0] : Fin 2 → Nat) a + S1x512.size a ≤ S378x512.size a
  inb_S378x512_S1x512_57_0 : ∀ a, (![57, 0] : Fin 2 → Nat) a + S1x512.size a ≤ S378x512.size a
  inb_S378x512_S1x512_58_0 : ∀ a, (![58, 0] : Fin 2 → Nat) a + S1x512.size a ≤ S378x512.size a
  inb_S378x512_S1x512_59_0 : ∀ a, (![59, 0] : Fin 2 → Nat) a + S1x512.size a ≤ S378x512.size a
  inb_S378x512_S1x512_60_0 : ∀ a, (![60, 0] : Fin 2 → Nat) a + S1x512.size a ≤ S378x512.size a
  inb_S378x512_S1x512_61_0 : ∀ a, (![61, 0] : Fin 2 → Nat) a + S1x512.size a ≤ S378x512.size a
  inb_S378x512_S1x512_62_0 : ∀ a, (![62, 0] : Fin 2 → Nat) a + S1x512.size a ≤ S378x512.size a
  inb_S378x512_S1x512_63_0 : ∀ a, (![63, 0] : Fin 2 → Nat) a + S1x512.size a ≤ S378x512.size a
  inb_S378x512_S1x512_64_0 : ∀ a, (![64, 0] : Fin 2 → Nat) a + S1x512.size a ≤ S378x512.size a
  inb_S378x512_S1x512_65_0 : ∀ a, (![65, 0] : Fin 2 → Nat) a + S1x512.size a ≤ S378x512.size a
  inb_S378x512_S1x512_66_0 : ∀ a, (![66, 0] : Fin 2 → Nat) a + S1x512.size a ≤ S378x512.size a
  inb_S378x512_S1x512_67_0 : ∀ a, (![67, 0] : Fin 2 → Nat) a + S1x512.size a ≤ S378x512.size a
  inb_S378x512_S1x512_68_0 : ∀ a, (![68, 0] : Fin 2 → Nat) a + S1x512.size a ≤ S378x512.size a
  inb_S378x512_S1x512_69_0 : ∀ a, (![69, 0] : Fin 2 → Nat) a + S1x512.size a ≤ S378x512.size a
  inb_S378x512_S1x512_70_0 : ∀ a, (![70, 0] : Fin 2 → Nat) a + S1x512.size a ≤ S378x512.size a
  inb_S378x512_S1x512_71_0 : ∀ a, (![71, 0] : Fin 2 → Nat) a + S1x512.size a ≤ S378x512.size a
  inb_S378x512_S1x512_72_0 : ∀ a, (![72, 0] : Fin 2 → Nat) a + S1x512.size a ≤ S378x512.size a
  inb_S378x512_S1x512_73_0 : ∀ a, (![73, 0] : Fin 2 → Nat) a + S1x512.size a ≤ S378x512.size a
  inb_S378x512_S1x512_74_0 : ∀ a, (![74, 0] : Fin 2 → Nat) a + S1x512.size a ≤ S378x512.size a
  inb_S378x512_S1x512_75_0 : ∀ a, (![75, 0] : Fin 2 → Nat) a + S1x512.size a ≤ S378x512.size a
  inb_S378x512_S1x512_76_0 : ∀ a, (![76, 0] : Fin 2 → Nat) a + S1x512.size a ≤ S378x512.size a
  inb_S378x512_S1x512_77_0 : ∀ a, (![77, 0] : Fin 2 → Nat) a + S1x512.size a ≤ S378x512.size a
  inb_S378x512_S1x512_78_0 : ∀ a, (![78, 0] : Fin 2 → Nat) a + S1x512.size a ≤ S378x512.size a
  inb_S378x512_S1x512_79_0 : ∀ a, (![79, 0] : Fin 2 → Nat) a + S1x512.size a ≤ S378x512.size a
  inb_S378x512_S1x512_80_0 : ∀ a, (![80, 0] : Fin 2 → Nat) a + S1x512.size a ≤ S378x512.size a
  inb_S378x512_S1x512_81_0 : ∀ a, (![81, 0] : Fin 2 → Nat) a + S1x512.size a ≤ S378x512.size a
  inb_S378x512_S1x512_82_0 : ∀ a, (![82, 0] : Fin 2 → Nat) a + S1x512.size a ≤ S378x512.size a
  inb_S378x512_S1x512_83_0 : ∀ a, (![83, 0] : Fin 2 → Nat) a + S1x512.size a ≤ S378x512.size a
  inb_S378x512_S1x512_84_0 : ∀ a, (![84, 0] : Fin 2 → Nat) a + S1x512.size a ≤ S378x512.size a
  inb_S378x512_S1x512_85_0 : ∀ a, (![85, 0] : Fin 2 → Nat) a + S1x512.size a ≤ S378x512.size a
  inb_S378x512_S1x512_86_0 : ∀ a, (![86, 0] : Fin 2 → Nat) a + S1x512.size a ≤ S378x512.size a
  inb_S378x512_S1x512_87_0 : ∀ a, (![87, 0] : Fin 2 → Nat) a + S1x512.size a ≤ S378x512.size a
  inb_S378x512_S1x512_88_0 : ∀ a, (![88, 0] : Fin 2 → Nat) a + S1x512.size a ≤ S378x512.size a
  inb_S378x512_S1x512_89_0 : ∀ a, (![89, 0] : Fin 2 → Nat) a + S1x512.size a ≤ S378x512.size a
  inb_S378x512_S1x512_90_0 : ∀ a, (![90, 0] : Fin 2 → Nat) a + S1x512.size a ≤ S378x512.size a
  inb_S378x512_S1x512_91_0 : ∀ a, (![91, 0] : Fin 2 → Nat) a + S1x512.size a ≤ S378x512.size a
  inb_S378x512_S1x512_92_0 : ∀ a, (![92, 0] : Fin 2 → Nat) a + S1x512.size a ≤ S378x512.size a
  inb_S378x512_S1x512_93_0 : ∀ a, (![93, 0] : Fin 2 → Nat) a + S1x512.size a ≤ S378x512.size a
  inb_S378x512_S1x512_94_0 : ∀ a, (![94, 0] : Fin 2 → Nat) a + S1x512.size a ≤ S378x512.size a
  inb_S378x512_S1x512_95_0 : ∀ a, (![95, 0] : Fin 2 → Nat) a + S1x512.size a ≤ S378x512.size a
  inb_S378x512_S1x512_96_0 : ∀ a, (![96, 0] : Fin 2 → Nat) a + S1x512.size a ≤ S378x512.size a
  inb_S378x512_S1x512_97_0 : ∀ a, (![97, 0] : Fin 2 → Nat) a + S1x512.size a ≤ S378x512.size a
  inb_S378x512_S1x512_98_0 : ∀ a, (![98, 0] : Fin 2 → Nat) a + S1x512.size a ≤ S378x512.size a
  inb_S378x512_S1x512_99_0 : ∀ a, (![99, 0] : Fin 2 → Nat) a + S1x512.size a ≤ S378x512.size a
  inb_S378x512_S1x512_100_0 : ∀ a, (![100, 0] : Fin 2 → Nat) a + S1x512.size a ≤ S378x512.size a
  inb_S378x512_S1x512_101_0 : ∀ a, (![101, 0] : Fin 2 → Nat) a + S1x512.size a ≤ S378x512.size a
  inb_S378x512_S1x512_102_0 : ∀ a, (![102, 0] : Fin 2 → Nat) a + S1x512.size a ≤ S378x512.size a
  inb_S378x512_S1x512_103_0 : ∀ a, (![103, 0] : Fin 2 → Nat) a + S1x512.size a ≤ S378x512.size a
  inb_S378x512_S1x512_104_0 : ∀ a, (![104, 0] : Fin 2 → Nat) a + S1x512.size a ≤ S378x512.size a
  inb_S378x512_S1x512_105_0 : ∀ a, (![105, 0] : Fin 2 → Nat) a + S1x512.size a ≤ S378x512.size a
  inb_S378x512_S1x512_106_0 : ∀ a, (![106, 0] : Fin 2 → Nat) a + S1x512.size a ≤ S378x512.size a
  inb_S378x512_S1x512_107_0 : ∀ a, (![107, 0] : Fin 2 → Nat) a + S1x512.size a ≤ S378x512.size a
  inb_S378x512_S1x512_108_0 : ∀ a, (![108, 0] : Fin 2 → Nat) a + S1x512.size a ≤ S378x512.size a
  inb_S378x512_S1x512_109_0 : ∀ a, (![109, 0] : Fin 2 → Nat) a + S1x512.size a ≤ S378x512.size a
  inb_S378x512_S1x512_110_0 : ∀ a, (![110, 0] : Fin 2 → Nat) a + S1x512.size a ≤ S378x512.size a
  inb_S378x512_S1x512_111_0 : ∀ a, (![111, 0] : Fin 2 → Nat) a + S1x512.size a ≤ S378x512.size a
  inb_S378x512_S1x512_112_0 : ∀ a, (![112, 0] : Fin 2 → Nat) a + S1x512.size a ≤ S378x512.size a
  inb_S378x512_S1x512_113_0 : ∀ a, (![113, 0] : Fin 2 → Nat) a + S1x512.size a ≤ S378x512.size a
  inb_S378x512_S1x512_114_0 : ∀ a, (![114, 0] : Fin 2 → Nat) a + S1x512.size a ≤ S378x512.size a
  inb_S378x512_S1x512_115_0 : ∀ a, (![115, 0] : Fin 2 → Nat) a + S1x512.size a ≤ S378x512.size a
  inb_S378x512_S1x512_116_0 : ∀ a, (![116, 0] : Fin 2 → Nat) a + S1x512.size a ≤ S378x512.size a
  inb_S378x512_S1x512_117_0 : ∀ a, (![117, 0] : Fin 2 → Nat) a + S1x512.size a ≤ S378x512.size a
  inb_S378x512_S1x512_118_0 : ∀ a, (![118, 0] : Fin 2 → Nat) a + S1x512.size a ≤ S378x512.size a
  inb_S378x512_S1x512_119_0 : ∀ a, (![119, 0] : Fin 2 → Nat) a + S1x512.size a ≤ S378x512.size a
  inb_S378x512_S1x512_120_0 : ∀ a, (![120, 0] : Fin 2 → Nat) a + S1x512.size a ≤ S378x512.size a
  inb_S378x512_S1x512_121_0 : ∀ a, (![121, 0] : Fin 2 → Nat) a + S1x512.size a ≤ S378x512.size a
  inb_S378x512_S1x512_122_0 : ∀ a, (![122, 0] : Fin 2 → Nat) a + S1x512.size a ≤ S378x512.size a
  inb_S378x512_S1x512_123_0 : ∀ a, (![123, 0] : Fin 2 → Nat) a + S1x512.size a ≤ S378x512.size a
  inb_S378x512_S1x512_124_0 : ∀ a, (![124, 0] : Fin 2 → Nat) a + S1x512.size a ≤ S378x512.size a
  inb_S378x512_S1x512_125_0 : ∀ a, (![125, 0] : Fin 2 → Nat) a + S1x512.size a ≤ S378x512.size a
  inb_S378x512_S1x512_126_0 : ∀ a, (![126, 0] : Fin 2 → Nat) a + S1x512.size a ≤ S378x512.size a
  inb_S378x512_S1x512_127_0 : ∀ a, (![127, 0] : Fin 2 → Nat) a + S1x512.size a ≤ S378x512.size a
  inb_S378x512_S1x512_128_0 : ∀ a, (![128, 0] : Fin 2 → Nat) a + S1x512.size a ≤ S378x512.size a
  inb_S378x512_S1x512_129_0 : ∀ a, (![129, 0] : Fin 2 → Nat) a + S1x512.size a ≤ S378x512.size a
  inb_S378x512_S1x512_130_0 : ∀ a, (![130, 0] : Fin 2 → Nat) a + S1x512.size a ≤ S378x512.size a
  inb_S378x512_S1x512_131_0 : ∀ a, (![131, 0] : Fin 2 → Nat) a + S1x512.size a ≤ S378x512.size a
  inb_S378x512_S1x512_132_0 : ∀ a, (![132, 0] : Fin 2 → Nat) a + S1x512.size a ≤ S378x512.size a
  inb_S378x512_S1x512_133_0 : ∀ a, (![133, 0] : Fin 2 → Nat) a + S1x512.size a ≤ S378x512.size a
  inb_S378x512_S1x512_134_0 : ∀ a, (![134, 0] : Fin 2 → Nat) a + S1x512.size a ≤ S378x512.size a
  inb_S378x512_S1x512_135_0 : ∀ a, (![135, 0] : Fin 2 → Nat) a + S1x512.size a ≤ S378x512.size a
  inb_S378x512_S1x512_136_0 : ∀ a, (![136, 0] : Fin 2 → Nat) a + S1x512.size a ≤ S378x512.size a
  inb_S378x512_S1x512_137_0 : ∀ a, (![137, 0] : Fin 2 → Nat) a + S1x512.size a ≤ S378x512.size a
  inb_S378x512_S1x512_138_0 : ∀ a, (![138, 0] : Fin 2 → Nat) a + S1x512.size a ≤ S378x512.size a
  inb_S378x512_S1x512_139_0 : ∀ a, (![139, 0] : Fin 2 → Nat) a + S1x512.size a ≤ S378x512.size a
  inb_S378x512_S1x512_140_0 : ∀ a, (![140, 0] : Fin 2 → Nat) a + S1x512.size a ≤ S378x512.size a
  inb_S378x512_S1x512_141_0 : ∀ a, (![141, 0] : Fin 2 → Nat) a + S1x512.size a ≤ S378x512.size a
  inb_S378x512_S1x512_142_0 : ∀ a, (![142, 0] : Fin 2 → Nat) a + S1x512.size a ≤ S378x512.size a
  inb_S378x512_S1x512_143_0 : ∀ a, (![143, 0] : Fin 2 → Nat) a + S1x512.size a ≤ S378x512.size a
  inb_S378x512_S1x512_144_0 : ∀ a, (![144, 0] : Fin 2 → Nat) a + S1x512.size a ≤ S378x512.size a
  inb_S378x512_S1x512_145_0 : ∀ a, (![145, 0] : Fin 2 → Nat) a + S1x512.size a ≤ S378x512.size a
  inb_S378x512_S1x512_146_0 : ∀ a, (![146, 0] : Fin 2 → Nat) a + S1x512.size a ≤ S378x512.size a
  inb_S378x512_S1x512_147_0 : ∀ a, (![147, 0] : Fin 2 → Nat) a + S1x512.size a ≤ S378x512.size a
  inb_S378x512_S1x512_148_0 : ∀ a, (![148, 0] : Fin 2 → Nat) a + S1x512.size a ≤ S378x512.size a
  inb_S378x512_S1x512_149_0 : ∀ a, (![149, 0] : Fin 2 → Nat) a + S1x512.size a ≤ S378x512.size a
  inb_S378x512_S1x512_150_0 : ∀ a, (![150, 0] : Fin 2 → Nat) a + S1x512.size a ≤ S378x512.size a
  inb_S378x512_S1x512_151_0 : ∀ a, (![151, 0] : Fin 2 → Nat) a + S1x512.size a ≤ S378x512.size a
  inb_S378x512_S1x512_152_0 : ∀ a, (![152, 0] : Fin 2 → Nat) a + S1x512.size a ≤ S378x512.size a
  inb_S378x512_S1x512_153_0 : ∀ a, (![153, 0] : Fin 2 → Nat) a + S1x512.size a ≤ S378x512.size a
  inb_S378x512_S1x512_154_0 : ∀ a, (![154, 0] : Fin 2 → Nat) a + S1x512.size a ≤ S378x512.size a
  inb_S378x512_S1x512_155_0 : ∀ a, (![155, 0] : Fin 2 → Nat) a + S1x512.size a ≤ S378x512.size a
  inb_S378x512_S1x512_156_0 : ∀ a, (![156, 0] : Fin 2 → Nat) a + S1x512.size a ≤ S378x512.size a
  inb_S378x512_S1x512_157_0 : ∀ a, (![157, 0] : Fin 2 → Nat) a + S1x512.size a ≤ S378x512.size a
  inb_S378x512_S1x512_158_0 : ∀ a, (![158, 0] : Fin 2 → Nat) a + S1x512.size a ≤ S378x512.size a
  inb_S378x512_S1x512_159_0 : ∀ a, (![159, 0] : Fin 2 → Nat) a + S1x512.size a ≤ S378x512.size a
  inb_S378x512_S1x512_160_0 : ∀ a, (![160, 0] : Fin 2 → Nat) a + S1x512.size a ≤ S378x512.size a
  inb_S378x512_S1x512_161_0 : ∀ a, (![161, 0] : Fin 2 → Nat) a + S1x512.size a ≤ S378x512.size a
  inb_S378x512_S1x512_162_0 : ∀ a, (![162, 0] : Fin 2 → Nat) a + S1x512.size a ≤ S378x512.size a
  inb_S378x512_S1x512_163_0 : ∀ a, (![163, 0] : Fin 2 → Nat) a + S1x512.size a ≤ S378x512.size a
  inb_S378x512_S1x512_164_0 : ∀ a, (![164, 0] : Fin 2 → Nat) a + S1x512.size a ≤ S378x512.size a
  inb_S378x512_S1x512_165_0 : ∀ a, (![165, 0] : Fin 2 → Nat) a + S1x512.size a ≤ S378x512.size a
  inb_S378x512_S1x512_166_0 : ∀ a, (![166, 0] : Fin 2 → Nat) a + S1x512.size a ≤ S378x512.size a
  inb_S378x512_S1x512_167_0 : ∀ a, (![167, 0] : Fin 2 → Nat) a + S1x512.size a ≤ S378x512.size a
  inb_S378x512_S1x512_168_0 : ∀ a, (![168, 0] : Fin 2 → Nat) a + S1x512.size a ≤ S378x512.size a
  inb_S378x512_S1x512_169_0 : ∀ a, (![169, 0] : Fin 2 → Nat) a + S1x512.size a ≤ S378x512.size a
  inb_S378x512_S1x512_170_0 : ∀ a, (![170, 0] : Fin 2 → Nat) a + S1x512.size a ≤ S378x512.size a
  inb_S378x512_S1x512_171_0 : ∀ a, (![171, 0] : Fin 2 → Nat) a + S1x512.size a ≤ S378x512.size a
  inb_S378x512_S1x512_172_0 : ∀ a, (![172, 0] : Fin 2 → Nat) a + S1x512.size a ≤ S378x512.size a
  inb_S378x512_S1x512_173_0 : ∀ a, (![173, 0] : Fin 2 → Nat) a + S1x512.size a ≤ S378x512.size a
  inb_S378x512_S1x512_174_0 : ∀ a, (![174, 0] : Fin 2 → Nat) a + S1x512.size a ≤ S378x512.size a
  inb_S378x512_S1x512_175_0 : ∀ a, (![175, 0] : Fin 2 → Nat) a + S1x512.size a ≤ S378x512.size a
  inb_S378x512_S1x512_176_0 : ∀ a, (![176, 0] : Fin 2 → Nat) a + S1x512.size a ≤ S378x512.size a
  inb_S378x512_S1x512_177_0 : ∀ a, (![177, 0] : Fin 2 → Nat) a + S1x512.size a ≤ S378x512.size a
  inb_S378x512_S1x512_178_0 : ∀ a, (![178, 0] : Fin 2 → Nat) a + S1x512.size a ≤ S378x512.size a
  inb_S378x512_S1x512_179_0 : ∀ a, (![179, 0] : Fin 2 → Nat) a + S1x512.size a ≤ S378x512.size a
  inb_S378x512_S1x512_180_0 : ∀ a, (![180, 0] : Fin 2 → Nat) a + S1x512.size a ≤ S378x512.size a
  inb_S378x512_S1x512_181_0 : ∀ a, (![181, 0] : Fin 2 → Nat) a + S1x512.size a ≤ S378x512.size a
  inb_S378x512_S1x512_182_0 : ∀ a, (![182, 0] : Fin 2 → Nat) a + S1x512.size a ≤ S378x512.size a
  inb_S378x512_S1x512_183_0 : ∀ a, (![183, 0] : Fin 2 → Nat) a + S1x512.size a ≤ S378x512.size a
  inb_S378x512_S1x512_184_0 : ∀ a, (![184, 0] : Fin 2 → Nat) a + S1x512.size a ≤ S378x512.size a
  inb_S378x512_S1x512_185_0 : ∀ a, (![185, 0] : Fin 2 → Nat) a + S1x512.size a ≤ S378x512.size a
  inb_S378x512_S1x512_186_0 : ∀ a, (![186, 0] : Fin 2 → Nat) a + S1x512.size a ≤ S378x512.size a
  inb_S378x512_S1x512_187_0 : ∀ a, (![187, 0] : Fin 2 → Nat) a + S1x512.size a ≤ S378x512.size a
  inb_S378x512_S1x512_188_0 : ∀ a, (![188, 0] : Fin 2 → Nat) a + S1x512.size a ≤ S378x512.size a
  inb_S378x512_S1x512_189_0 : ∀ a, (![189, 0] : Fin 2 → Nat) a + S1x512.size a ≤ S378x512.size a
  inb_S378x512_S1x512_190_0 : ∀ a, (![190, 0] : Fin 2 → Nat) a + S1x512.size a ≤ S378x512.size a
  inb_S378x512_S1x512_191_0 : ∀ a, (![191, 0] : Fin 2 → Nat) a + S1x512.size a ≤ S378x512.size a
  inb_S378x512_S1x512_192_0 : ∀ a, (![192, 0] : Fin 2 → Nat) a + S1x512.size a ≤ S378x512.size a
  inb_S378x512_S1x512_193_0 : ∀ a, (![193, 0] : Fin 2 → Nat) a + S1x512.size a ≤ S378x512.size a
  inb_S378x512_S1x512_194_0 : ∀ a, (![194, 0] : Fin 2 → Nat) a + S1x512.size a ≤ S378x512.size a
  inb_S378x512_S1x512_195_0 : ∀ a, (![195, 0] : Fin 2 → Nat) a + S1x512.size a ≤ S378x512.size a
  inb_S378x512_S1x512_196_0 : ∀ a, (![196, 0] : Fin 2 → Nat) a + S1x512.size a ≤ S378x512.size a
  inb_S378x512_S1x512_197_0 : ∀ a, (![197, 0] : Fin 2 → Nat) a + S1x512.size a ≤ S378x512.size a
  inb_S378x512_S1x512_198_0 : ∀ a, (![198, 0] : Fin 2 → Nat) a + S1x512.size a ≤ S378x512.size a
  inb_S378x512_S1x512_199_0 : ∀ a, (![199, 0] : Fin 2 → Nat) a + S1x512.size a ≤ S378x512.size a
  inb_S378x512_S1x512_200_0 : ∀ a, (![200, 0] : Fin 2 → Nat) a + S1x512.size a ≤ S378x512.size a
  inb_S378x512_S1x512_201_0 : ∀ a, (![201, 0] : Fin 2 → Nat) a + S1x512.size a ≤ S378x512.size a
  inb_S378x512_S1x512_202_0 : ∀ a, (![202, 0] : Fin 2 → Nat) a + S1x512.size a ≤ S378x512.size a
  inb_S378x512_S1x512_203_0 : ∀ a, (![203, 0] : Fin 2 → Nat) a + S1x512.size a ≤ S378x512.size a
  inb_S378x512_S1x512_204_0 : ∀ a, (![204, 0] : Fin 2 → Nat) a + S1x512.size a ≤ S378x512.size a
  inb_S378x512_S1x512_205_0 : ∀ a, (![205, 0] : Fin 2 → Nat) a + S1x512.size a ≤ S378x512.size a
  inb_S378x512_S1x512_206_0 : ∀ a, (![206, 0] : Fin 2 → Nat) a + S1x512.size a ≤ S378x512.size a
  inb_S378x512_S1x512_207_0 : ∀ a, (![207, 0] : Fin 2 → Nat) a + S1x512.size a ≤ S378x512.size a
  inb_S378x512_S1x512_208_0 : ∀ a, (![208, 0] : Fin 2 → Nat) a + S1x512.size a ≤ S378x512.size a
  inb_S378x512_S1x512_209_0 : ∀ a, (![209, 0] : Fin 2 → Nat) a + S1x512.size a ≤ S378x512.size a
  inb_S378x512_S1x512_210_0 : ∀ a, (![210, 0] : Fin 2 → Nat) a + S1x512.size a ≤ S378x512.size a
  inb_S378x512_S1x512_211_0 : ∀ a, (![211, 0] : Fin 2 → Nat) a + S1x512.size a ≤ S378x512.size a
  inb_S378x512_S1x512_212_0 : ∀ a, (![212, 0] : Fin 2 → Nat) a + S1x512.size a ≤ S378x512.size a
  inb_S378x512_S1x512_213_0 : ∀ a, (![213, 0] : Fin 2 → Nat) a + S1x512.size a ≤ S378x512.size a
  inb_S378x512_S1x512_214_0 : ∀ a, (![214, 0] : Fin 2 → Nat) a + S1x512.size a ≤ S378x512.size a
  inb_S378x512_S1x512_215_0 : ∀ a, (![215, 0] : Fin 2 → Nat) a + S1x512.size a ≤ S378x512.size a
  inb_S378x512_S1x512_216_0 : ∀ a, (![216, 0] : Fin 2 → Nat) a + S1x512.size a ≤ S378x512.size a
  inb_S378x512_S1x512_217_0 : ∀ a, (![217, 0] : Fin 2 → Nat) a + S1x512.size a ≤ S378x512.size a
  inb_S378x512_S1x512_218_0 : ∀ a, (![218, 0] : Fin 2 → Nat) a + S1x512.size a ≤ S378x512.size a
  inb_S378x512_S1x512_219_0 : ∀ a, (![219, 0] : Fin 2 → Nat) a + S1x512.size a ≤ S378x512.size a
  inb_S378x512_S1x512_220_0 : ∀ a, (![220, 0] : Fin 2 → Nat) a + S1x512.size a ≤ S378x512.size a
  inb_S378x512_S1x512_221_0 : ∀ a, (![221, 0] : Fin 2 → Nat) a + S1x512.size a ≤ S378x512.size a
  inb_S378x512_S1x512_222_0 : ∀ a, (![222, 0] : Fin 2 → Nat) a + S1x512.size a ≤ S378x512.size a
  inb_S378x512_S1x512_223_0 : ∀ a, (![223, 0] : Fin 2 → Nat) a + S1x512.size a ≤ S378x512.size a
  inb_S378x512_S1x512_224_0 : ∀ a, (![224, 0] : Fin 2 → Nat) a + S1x512.size a ≤ S378x512.size a
  inb_S378x512_S1x512_225_0 : ∀ a, (![225, 0] : Fin 2 → Nat) a + S1x512.size a ≤ S378x512.size a
  inb_S378x512_S1x512_226_0 : ∀ a, (![226, 0] : Fin 2 → Nat) a + S1x512.size a ≤ S378x512.size a
  inb_S378x512_S1x512_227_0 : ∀ a, (![227, 0] : Fin 2 → Nat) a + S1x512.size a ≤ S378x512.size a
  inb_S378x512_S1x512_228_0 : ∀ a, (![228, 0] : Fin 2 → Nat) a + S1x512.size a ≤ S378x512.size a
  inb_S378x512_S1x512_229_0 : ∀ a, (![229, 0] : Fin 2 → Nat) a + S1x512.size a ≤ S378x512.size a
  inb_S378x512_S1x512_230_0 : ∀ a, (![230, 0] : Fin 2 → Nat) a + S1x512.size a ≤ S378x512.size a
  inb_S378x512_S1x512_231_0 : ∀ a, (![231, 0] : Fin 2 → Nat) a + S1x512.size a ≤ S378x512.size a
  inb_S378x512_S1x512_232_0 : ∀ a, (![232, 0] : Fin 2 → Nat) a + S1x512.size a ≤ S378x512.size a
  inb_S378x512_S1x512_233_0 : ∀ a, (![233, 0] : Fin 2 → Nat) a + S1x512.size a ≤ S378x512.size a
  inb_S378x512_S1x512_234_0 : ∀ a, (![234, 0] : Fin 2 → Nat) a + S1x512.size a ≤ S378x512.size a
  inb_S378x512_S1x512_235_0 : ∀ a, (![235, 0] : Fin 2 → Nat) a + S1x512.size a ≤ S378x512.size a
  inb_S378x512_S1x512_236_0 : ∀ a, (![236, 0] : Fin 2 → Nat) a + S1x512.size a ≤ S378x512.size a
  inb_S378x512_S1x512_237_0 : ∀ a, (![237, 0] : Fin 2 → Nat) a + S1x512.size a ≤ S378x512.size a
  inb_S378x512_S1x512_238_0 : ∀ a, (![238, 0] : Fin 2 → Nat) a + S1x512.size a ≤ S378x512.size a
  inb_S378x512_S1x512_239_0 : ∀ a, (![239, 0] : Fin 2 → Nat) a + S1x512.size a ≤ S378x512.size a
  inb_S378x512_S1x512_240_0 : ∀ a, (![240, 0] : Fin 2 → Nat) a + S1x512.size a ≤ S378x512.size a
  inb_S378x512_S1x512_241_0 : ∀ a, (![241, 0] : Fin 2 → Nat) a + S1x512.size a ≤ S378x512.size a
  inb_S378x512_S1x512_242_0 : ∀ a, (![242, 0] : Fin 2 → Nat) a + S1x512.size a ≤ S378x512.size a
  inb_S378x512_S1x512_243_0 : ∀ a, (![243, 0] : Fin 2 → Nat) a + S1x512.size a ≤ S378x512.size a
  inb_S378x512_S1x512_244_0 : ∀ a, (![244, 0] : Fin 2 → Nat) a + S1x512.size a ≤ S378x512.size a
  inb_S378x512_S1x512_245_0 : ∀ a, (![245, 0] : Fin 2 → Nat) a + S1x512.size a ≤ S378x512.size a
  inb_S378x512_S1x512_246_0 : ∀ a, (![246, 0] : Fin 2 → Nat) a + S1x512.size a ≤ S378x512.size a
  inb_S378x512_S1x512_247_0 : ∀ a, (![247, 0] : Fin 2 → Nat) a + S1x512.size a ≤ S378x512.size a
  inb_S378x512_S1x512_248_0 : ∀ a, (![248, 0] : Fin 2 → Nat) a + S1x512.size a ≤ S378x512.size a
  inb_S378x512_S1x512_249_0 : ∀ a, (![249, 0] : Fin 2 → Nat) a + S1x512.size a ≤ S378x512.size a
  inb_S378x512_S1x512_250_0 : ∀ a, (![250, 0] : Fin 2 → Nat) a + S1x512.size a ≤ S378x512.size a
  inb_S378x512_S1x512_251_0 : ∀ a, (![251, 0] : Fin 2 → Nat) a + S1x512.size a ≤ S378x512.size a
  inb_S378x512_S1x512_252_0 : ∀ a, (![252, 0] : Fin 2 → Nat) a + S1x512.size a ≤ S378x512.size a
  inb_S378x512_S1x512_253_0 : ∀ a, (![253, 0] : Fin 2 → Nat) a + S1x512.size a ≤ S378x512.size a
  inb_S378x512_S1x512_254_0 : ∀ a, (![254, 0] : Fin 2 → Nat) a + S1x512.size a ≤ S378x512.size a
  inb_S378x512_S1x512_255_0 : ∀ a, (![255, 0] : Fin 2 → Nat) a + S1x512.size a ≤ S378x512.size a
  inb_S378x512_S1x512_256_0 : ∀ a, (![256, 0] : Fin 2 → Nat) a + S1x512.size a ≤ S378x512.size a
  inb_S378x512_S1x512_257_0 : ∀ a, (![257, 0] : Fin 2 → Nat) a + S1x512.size a ≤ S378x512.size a
  inb_S378x512_S1x512_258_0 : ∀ a, (![258, 0] : Fin 2 → Nat) a + S1x512.size a ≤ S378x512.size a
  inb_S378x512_S1x512_259_0 : ∀ a, (![259, 0] : Fin 2 → Nat) a + S1x512.size a ≤ S378x512.size a
  inb_S378x512_S1x512_260_0 : ∀ a, (![260, 0] : Fin 2 → Nat) a + S1x512.size a ≤ S378x512.size a
  inb_S378x512_S1x512_261_0 : ∀ a, (![261, 0] : Fin 2 → Nat) a + S1x512.size a ≤ S378x512.size a
  inb_S378x512_S1x512_262_0 : ∀ a, (![262, 0] : Fin 2 → Nat) a + S1x512.size a ≤ S378x512.size a
  inb_S378x512_S1x512_263_0 : ∀ a, (![263, 0] : Fin 2 → Nat) a + S1x512.size a ≤ S378x512.size a
  inb_S378x512_S1x512_264_0 : ∀ a, (![264, 0] : Fin 2 → Nat) a + S1x512.size a ≤ S378x512.size a
  inb_S378x512_S1x512_265_0 : ∀ a, (![265, 0] : Fin 2 → Nat) a + S1x512.size a ≤ S378x512.size a
  inb_S378x512_S1x512_266_0 : ∀ a, (![266, 0] : Fin 2 → Nat) a + S1x512.size a ≤ S378x512.size a
  inb_S378x512_S1x512_267_0 : ∀ a, (![267, 0] : Fin 2 → Nat) a + S1x512.size a ≤ S378x512.size a
  inb_S378x512_S1x512_268_0 : ∀ a, (![268, 0] : Fin 2 → Nat) a + S1x512.size a ≤ S378x512.size a
  inb_S378x512_S1x512_269_0 : ∀ a, (![269, 0] : Fin 2 → Nat) a + S1x512.size a ≤ S378x512.size a
  inb_S378x512_S1x512_270_0 : ∀ a, (![270, 0] : Fin 2 → Nat) a + S1x512.size a ≤ S378x512.size a
  inb_S378x512_S1x512_271_0 : ∀ a, (![271, 0] : Fin 2 → Nat) a + S1x512.size a ≤ S378x512.size a
  inb_S378x512_S1x512_272_0 : ∀ a, (![272, 0] : Fin 2 → Nat) a + S1x512.size a ≤ S378x512.size a
  inb_S378x512_S1x512_273_0 : ∀ a, (![273, 0] : Fin 2 → Nat) a + S1x512.size a ≤ S378x512.size a
  inb_S378x512_S1x512_274_0 : ∀ a, (![274, 0] : Fin 2 → Nat) a + S1x512.size a ≤ S378x512.size a
  inb_S378x512_S1x512_275_0 : ∀ a, (![275, 0] : Fin 2 → Nat) a + S1x512.size a ≤ S378x512.size a
  inb_S378x512_S1x512_276_0 : ∀ a, (![276, 0] : Fin 2 → Nat) a + S1x512.size a ≤ S378x512.size a
  inb_S378x512_S1x512_277_0 : ∀ a, (![277, 0] : Fin 2 → Nat) a + S1x512.size a ≤ S378x512.size a
  inb_S378x512_S1x512_278_0 : ∀ a, (![278, 0] : Fin 2 → Nat) a + S1x512.size a ≤ S378x512.size a
  inb_S378x512_S1x512_279_0 : ∀ a, (![279, 0] : Fin 2 → Nat) a + S1x512.size a ≤ S378x512.size a
  inb_S378x512_S1x512_280_0 : ∀ a, (![280, 0] : Fin 2 → Nat) a + S1x512.size a ≤ S378x512.size a
  inb_S378x512_S1x512_281_0 : ∀ a, (![281, 0] : Fin 2 → Nat) a + S1x512.size a ≤ S378x512.size a
  inb_S378x512_S1x512_282_0 : ∀ a, (![282, 0] : Fin 2 → Nat) a + S1x512.size a ≤ S378x512.size a
  inb_S378x512_S1x512_283_0 : ∀ a, (![283, 0] : Fin 2 → Nat) a + S1x512.size a ≤ S378x512.size a
  inb_S378x512_S1x512_284_0 : ∀ a, (![284, 0] : Fin 2 → Nat) a + S1x512.size a ≤ S378x512.size a
  inb_S378x512_S1x512_285_0 : ∀ a, (![285, 0] : Fin 2 → Nat) a + S1x512.size a ≤ S378x512.size a
  inb_S378x512_S1x512_286_0 : ∀ a, (![286, 0] : Fin 2 → Nat) a + S1x512.size a ≤ S378x512.size a
  inb_S378x512_S1x512_287_0 : ∀ a, (![287, 0] : Fin 2 → Nat) a + S1x512.size a ≤ S378x512.size a
  inb_S378x512_S1x512_288_0 : ∀ a, (![288, 0] : Fin 2 → Nat) a + S1x512.size a ≤ S378x512.size a
  inb_S378x512_S1x512_289_0 : ∀ a, (![289, 0] : Fin 2 → Nat) a + S1x512.size a ≤ S378x512.size a
  inb_S378x512_S1x512_290_0 : ∀ a, (![290, 0] : Fin 2 → Nat) a + S1x512.size a ≤ S378x512.size a
  inb_S378x512_S1x512_291_0 : ∀ a, (![291, 0] : Fin 2 → Nat) a + S1x512.size a ≤ S378x512.size a
  inb_S378x512_S1x512_292_0 : ∀ a, (![292, 0] : Fin 2 → Nat) a + S1x512.size a ≤ S378x512.size a
  inb_S378x512_S1x512_293_0 : ∀ a, (![293, 0] : Fin 2 → Nat) a + S1x512.size a ≤ S378x512.size a
  inb_S378x512_S1x512_294_0 : ∀ a, (![294, 0] : Fin 2 → Nat) a + S1x512.size a ≤ S378x512.size a
  inb_S378x512_S1x512_295_0 : ∀ a, (![295, 0] : Fin 2 → Nat) a + S1x512.size a ≤ S378x512.size a
  inb_S378x512_S1x512_296_0 : ∀ a, (![296, 0] : Fin 2 → Nat) a + S1x512.size a ≤ S378x512.size a
  inb_S378x512_S1x512_297_0 : ∀ a, (![297, 0] : Fin 2 → Nat) a + S1x512.size a ≤ S378x512.size a
  inb_S378x512_S1x512_298_0 : ∀ a, (![298, 0] : Fin 2 → Nat) a + S1x512.size a ≤ S378x512.size a
  inb_S378x512_S1x512_299_0 : ∀ a, (![299, 0] : Fin 2 → Nat) a + S1x512.size a ≤ S378x512.size a
  inb_S378x512_S1x512_300_0 : ∀ a, (![300, 0] : Fin 2 → Nat) a + S1x512.size a ≤ S378x512.size a
  inb_S378x512_S1x512_301_0 : ∀ a, (![301, 0] : Fin 2 → Nat) a + S1x512.size a ≤ S378x512.size a
  inb_S378x512_S1x512_302_0 : ∀ a, (![302, 0] : Fin 2 → Nat) a + S1x512.size a ≤ S378x512.size a
  inb_S378x512_S1x512_303_0 : ∀ a, (![303, 0] : Fin 2 → Nat) a + S1x512.size a ≤ S378x512.size a
  inb_S378x512_S1x512_304_0 : ∀ a, (![304, 0] : Fin 2 → Nat) a + S1x512.size a ≤ S378x512.size a
  inb_S378x512_S1x512_305_0 : ∀ a, (![305, 0] : Fin 2 → Nat) a + S1x512.size a ≤ S378x512.size a
  inb_S378x512_S1x512_306_0 : ∀ a, (![306, 0] : Fin 2 → Nat) a + S1x512.size a ≤ S378x512.size a
  inb_S378x512_S1x512_307_0 : ∀ a, (![307, 0] : Fin 2 → Nat) a + S1x512.size a ≤ S378x512.size a
  inb_S378x512_S1x512_308_0 : ∀ a, (![308, 0] : Fin 2 → Nat) a + S1x512.size a ≤ S378x512.size a
  inb_S378x512_S1x512_309_0 : ∀ a, (![309, 0] : Fin 2 → Nat) a + S1x512.size a ≤ S378x512.size a
  inb_S378x512_S1x512_310_0 : ∀ a, (![310, 0] : Fin 2 → Nat) a + S1x512.size a ≤ S378x512.size a
  inb_S378x512_S1x512_311_0 : ∀ a, (![311, 0] : Fin 2 → Nat) a + S1x512.size a ≤ S378x512.size a
  inb_S378x512_S1x512_312_0 : ∀ a, (![312, 0] : Fin 2 → Nat) a + S1x512.size a ≤ S378x512.size a
  inb_S378x512_S1x512_313_0 : ∀ a, (![313, 0] : Fin 2 → Nat) a + S1x512.size a ≤ S378x512.size a
  inb_S378x512_S1x512_314_0 : ∀ a, (![314, 0] : Fin 2 → Nat) a + S1x512.size a ≤ S378x512.size a
  inb_S378x512_S1x512_315_0 : ∀ a, (![315, 0] : Fin 2 → Nat) a + S1x512.size a ≤ S378x512.size a
  inb_S378x512_S1x512_316_0 : ∀ a, (![316, 0] : Fin 2 → Nat) a + S1x512.size a ≤ S378x512.size a
  inb_S378x512_S1x512_317_0 : ∀ a, (![317, 0] : Fin 2 → Nat) a + S1x512.size a ≤ S378x512.size a
  inb_S378x512_S1x512_318_0 : ∀ a, (![318, 0] : Fin 2 → Nat) a + S1x512.size a ≤ S378x512.size a
  inb_S378x512_S1x512_319_0 : ∀ a, (![319, 0] : Fin 2 → Nat) a + S1x512.size a ≤ S378x512.size a
  inb_S378x512_S1x512_320_0 : ∀ a, (![320, 0] : Fin 2 → Nat) a + S1x512.size a ≤ S378x512.size a
  inb_S378x512_S1x512_321_0 : ∀ a, (![321, 0] : Fin 2 → Nat) a + S1x512.size a ≤ S378x512.size a
  inb_S378x512_S1x512_322_0 : ∀ a, (![322, 0] : Fin 2 → Nat) a + S1x512.size a ≤ S378x512.size a
  inb_S378x512_S1x512_323_0 : ∀ a, (![323, 0] : Fin 2 → Nat) a + S1x512.size a ≤ S378x512.size a
  inb_S378x512_S1x512_324_0 : ∀ a, (![324, 0] : Fin 2 → Nat) a + S1x512.size a ≤ S378x512.size a
  inb_S378x512_S1x512_325_0 : ∀ a, (![325, 0] : Fin 2 → Nat) a + S1x512.size a ≤ S378x512.size a
  inb_S378x512_S1x512_326_0 : ∀ a, (![326, 0] : Fin 2 → Nat) a + S1x512.size a ≤ S378x512.size a
  inb_S378x512_S1x512_327_0 : ∀ a, (![327, 0] : Fin 2 → Nat) a + S1x512.size a ≤ S378x512.size a
  inb_S378x512_S1x512_328_0 : ∀ a, (![328, 0] : Fin 2 → Nat) a + S1x512.size a ≤ S378x512.size a
  inb_S378x512_S1x512_329_0 : ∀ a, (![329, 0] : Fin 2 → Nat) a + S1x512.size a ≤ S378x512.size a
  inb_S378x512_S1x512_330_0 : ∀ a, (![330, 0] : Fin 2 → Nat) a + S1x512.size a ≤ S378x512.size a
  inb_S378x512_S1x512_331_0 : ∀ a, (![331, 0] : Fin 2 → Nat) a + S1x512.size a ≤ S378x512.size a
  inb_S378x512_S1x512_332_0 : ∀ a, (![332, 0] : Fin 2 → Nat) a + S1x512.size a ≤ S378x512.size a
  inb_S378x512_S1x512_333_0 : ∀ a, (![333, 0] : Fin 2 → Nat) a + S1x512.size a ≤ S378x512.size a
  inb_S378x512_S1x512_334_0 : ∀ a, (![334, 0] : Fin 2 → Nat) a + S1x512.size a ≤ S378x512.size a
  inb_S378x512_S1x512_335_0 : ∀ a, (![335, 0] : Fin 2 → Nat) a + S1x512.size a ≤ S378x512.size a
  inb_S378x512_S1x512_336_0 : ∀ a, (![336, 0] : Fin 2 → Nat) a + S1x512.size a ≤ S378x512.size a
  inb_S378x512_S1x512_337_0 : ∀ a, (![337, 0] : Fin 2 → Nat) a + S1x512.size a ≤ S378x512.size a
  inb_S378x512_S1x512_338_0 : ∀ a, (![338, 0] : Fin 2 → Nat) a + S1x512.size a ≤ S378x512.size a
  inb_S378x512_S1x512_339_0 : ∀ a, (![339, 0] : Fin 2 → Nat) a + S1x512.size a ≤ S378x512.size a
  inb_S378x512_S1x512_340_0 : ∀ a, (![340, 0] : Fin 2 → Nat) a + S1x512.size a ≤ S378x512.size a
  inb_S378x512_S1x512_341_0 : ∀ a, (![341, 0] : Fin 2 → Nat) a + S1x512.size a ≤ S378x512.size a
  inb_S378x512_S1x512_342_0 : ∀ a, (![342, 0] : Fin 2 → Nat) a + S1x512.size a ≤ S378x512.size a
  inb_S378x512_S1x512_343_0 : ∀ a, (![343, 0] : Fin 2 → Nat) a + S1x512.size a ≤ S378x512.size a
  inb_S378x512_S1x512_344_0 : ∀ a, (![344, 0] : Fin 2 → Nat) a + S1x512.size a ≤ S378x512.size a
  inb_S378x512_S1x512_345_0 : ∀ a, (![345, 0] : Fin 2 → Nat) a + S1x512.size a ≤ S378x512.size a
  inb_S378x512_S1x512_346_0 : ∀ a, (![346, 0] : Fin 2 → Nat) a + S1x512.size a ≤ S378x512.size a
  inb_S378x512_S1x512_347_0 : ∀ a, (![347, 0] : Fin 2 → Nat) a + S1x512.size a ≤ S378x512.size a
  inb_S378x512_S1x512_348_0 : ∀ a, (![348, 0] : Fin 2 → Nat) a + S1x512.size a ≤ S378x512.size a
  inb_S378x512_S1x512_349_0 : ∀ a, (![349, 0] : Fin 2 → Nat) a + S1x512.size a ≤ S378x512.size a
  inb_S378x512_S1x512_350_0 : ∀ a, (![350, 0] : Fin 2 → Nat) a + S1x512.size a ≤ S378x512.size a
  inb_S378x512_S1x512_351_0 : ∀ a, (![351, 0] : Fin 2 → Nat) a + S1x512.size a ≤ S378x512.size a
  inb_S378x512_S1x512_352_0 : ∀ a, (![352, 0] : Fin 2 → Nat) a + S1x512.size a ≤ S378x512.size a
  inb_S378x512_S1x512_353_0 : ∀ a, (![353, 0] : Fin 2 → Nat) a + S1x512.size a ≤ S378x512.size a
  inb_S378x512_S1x512_354_0 : ∀ a, (![354, 0] : Fin 2 → Nat) a + S1x512.size a ≤ S378x512.size a
  inb_S378x512_S1x512_355_0 : ∀ a, (![355, 0] : Fin 2 → Nat) a + S1x512.size a ≤ S378x512.size a
  inb_S378x512_S1x512_356_0 : ∀ a, (![356, 0] : Fin 2 → Nat) a + S1x512.size a ≤ S378x512.size a
  inb_S378x512_S1x512_357_0 : ∀ a, (![357, 0] : Fin 2 → Nat) a + S1x512.size a ≤ S378x512.size a
  inb_S378x512_S1x512_358_0 : ∀ a, (![358, 0] : Fin 2 → Nat) a + S1x512.size a ≤ S378x512.size a
  inb_S378x512_S1x512_359_0 : ∀ a, (![359, 0] : Fin 2 → Nat) a + S1x512.size a ≤ S378x512.size a
  inb_S378x512_S1x512_360_0 : ∀ a, (![360, 0] : Fin 2 → Nat) a + S1x512.size a ≤ S378x512.size a
  inb_S378x512_S1x512_361_0 : ∀ a, (![361, 0] : Fin 2 → Nat) a + S1x512.size a ≤ S378x512.size a
  inb_S378x512_S1x512_362_0 : ∀ a, (![362, 0] : Fin 2 → Nat) a + S1x512.size a ≤ S378x512.size a
  inb_S378x512_S1x512_363_0 : ∀ a, (![363, 0] : Fin 2 → Nat) a + S1x512.size a ≤ S378x512.size a
  inb_S378x512_S1x512_364_0 : ∀ a, (![364, 0] : Fin 2 → Nat) a + S1x512.size a ≤ S378x512.size a
  inb_S378x512_S1x512_365_0 : ∀ a, (![365, 0] : Fin 2 → Nat) a + S1x512.size a ≤ S378x512.size a
  inb_S378x512_S1x512_366_0 : ∀ a, (![366, 0] : Fin 2 → Nat) a + S1x512.size a ≤ S378x512.size a
  inb_S378x512_S1x512_367_0 : ∀ a, (![367, 0] : Fin 2 → Nat) a + S1x512.size a ≤ S378x512.size a
  inb_S378x512_S1x512_368_0 : ∀ a, (![368, 0] : Fin 2 → Nat) a + S1x512.size a ≤ S378x512.size a
  inb_S378x512_S1x512_369_0 : ∀ a, (![369, 0] : Fin 2 → Nat) a + S1x512.size a ≤ S378x512.size a
  inb_S378x512_S1x512_370_0 : ∀ a, (![370, 0] : Fin 2 → Nat) a + S1x512.size a ≤ S378x512.size a
  inb_S378x512_S1x512_371_0 : ∀ a, (![371, 0] : Fin 2 → Nat) a + S1x512.size a ≤ S378x512.size a
  inb_S378x512_S1x512_372_0 : ∀ a, (![372, 0] : Fin 2 → Nat) a + S1x512.size a ≤ S378x512.size a
  inb_S378x512_S1x512_373_0 : ∀ a, (![373, 0] : Fin 2 → Nat) a + S1x512.size a ≤ S378x512.size a
  inb_S378x512_S1x512_374_0 : ∀ a, (![374, 0] : Fin 2 → Nat) a + S1x512.size a ≤ S378x512.size a
  inb_S378x512_S1x512_375_0 : ∀ a, (![375, 0] : Fin 2 → Nat) a + S1x512.size a ≤ S378x512.size a
  inb_S378x512_S1x512_376_0 : ∀ a, (![376, 0] : Fin 2 → Nat) a + S1x512.size a ≤ S378x512.size a
  inb_S378x512_S1x512_377_0 : ∀ a, (![377, 0] : Fin 2 → Nat) a + S1x512.size a ≤ S378x512.size a
  inb_S378x512_S378x512_0_0 : ∀ a, (![0, 0] : Fin 2 → Nat) a + S378x512.size a ≤ S378x512.size a
  h_S378x512 : 0 < S378x512.numel
  transposes_S378x512_p1_0_S512x378 : S378x512.Transposes [1, 0] S512x378
  concatenates_S512x128_S512x378_S512x506_d1 : Shape.Concatenates [S512x128, S512x378] S512x506 1
  inb_S512x506_S512x506_0_0 : ∀ a, (![0, 0] : Fin 2 → Nat) a + S512x506.size a ≤ S512x506.size a
  h_S512x506 : 0 < S512x506.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S26x512x128.size a ≤ S26x16384x128.size a
  hwx0_1 : ∀ i : grid0.Coords, EltTy.bits .f32 = 32 ∨ (Rect.block (s := S26x16384x128) S26x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x506.size a ≤ S16384x506.size a
  hwx0_2 : ∀ i : grid0.Coords, EltTy.bits .f32 = 32 ∨ (Rect.block (s := S16384x506) S512x506.size (cc0_transform_2 i) (hinb0_2 i)).WholeWords (EltTy.packing .f32)

variable [Facts₀]

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S26x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x506.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S26x16384x128 : Shape := ⟨3, ![26, 16384, 128]⟩
abbrev S378 : Shape := ⟨1, ![378]⟩
abbrev S1x16384x128 : Shape := ⟨3, ![1, 16384, 128]⟩
abbrev S27x16384x128 : Shape := ⟨3, ![27, 16384, 128]⟩
abbrev S16384x27x128 : Shape := ⟨3, ![16384, 27, 128]⟩
abbrev S16384x27x27 : Shape := ⟨3, ![16384, 27, 27]⟩
abbrev S_ : Shape := ⟨0, ![]⟩
abbrev S378x1 : Shape := ⟨2, ![378, 1]⟩
abbrev S378x2 : Shape := ⟨2, ![378, 2]⟩
abbrev S16384x378 : Shape := ⟨2, ![16384, 378]⟩
abbrev S16384x506 : Shape := ⟨2, ![16384, 506]⟩

abbrev nBuf : Space → Nat
  | .hbm => 23
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S26x16384x128, .f32⟩
  | .hbm, ⟨2, _⟩ => ⟨S378, .i32⟩
  | .hbm, ⟨3, _⟩ => ⟨S378, .i1⟩
  | .hbm, ⟨4, _⟩ => ⟨S378, .i32⟩
  | .hbm, ⟨5, _⟩ => ⟨S378, .i1⟩
  | .hbm, ⟨6, _⟩ => ⟨S1x16384x128, .f32⟩
  | .hbm, ⟨7, _⟩ => ⟨S27x16384x128, .f32⟩
  | .hbm, ⟨8, _⟩ => ⟨S16384x27x128, .f32⟩
  | .hbm, ⟨9, _⟩ => ⟨S16384x27x27, .f32⟩
  | .hbm, ⟨10, _⟩ => ⟨S_, .i32⟩
  | .hbm, ⟨11, _⟩ => ⟨S378, .i32⟩
  | .hbm, ⟨12, _⟩ => ⟨S378, .i32⟩
  | .hbm, ⟨13, _⟩ => ⟨S378, .i32⟩
  | .hbm, ⟨14, _⟩ => ⟨S_, .i32⟩
  | .hbm, ⟨15, _⟩ => ⟨S378, .i32⟩
  | .hbm, ⟨16, _⟩ => ⟨S378, .i32⟩
  | .hbm, ⟨17, _⟩ => ⟨S378, .i32⟩
  | .hbm, ⟨18, _⟩ => ⟨S378x1, .i32⟩
  | .hbm, ⟨19, _⟩ => ⟨S378x1, .i32⟩
  | .hbm, ⟨20, _⟩ => ⟨S378x2, .i32⟩
  | .hbm, ⟨21, _⟩ => ⟨S16384x378, .f32⟩
  | .hbm, ⟨22, _⟩ => ⟨S16384x506, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S16384x128_S1x16384x128_1_2 : S16384x128.BroadcastsInDim S1x16384x128 (![1, 2] : Fin 2 → Fin S1x16384x128.rank)
  concatenates_S1x16384x128_S26x16384x128_S27x16384x128_d0 : Shape.Concatenates [S1x16384x128, S26x16384x128] S27x16384x128 0
  transposes_S27x16384x128_S16384x27x128_1_0_2 : S27x16384x128.Transposes [1, 0, 2] S16384x27x128
  bcast_S_S378 : S_.BroadcastsInDim S378 (![] : Fin 0 → Fin S378.rank)
  bcast_S378_S378x1_0 : S378.BroadcastsInDim S378x1 (![0] : Fin 1 → Fin S378x1.rank)
  concatenates_S378x1_S378x1_S378x2_d1 : Shape.Concatenates [S378x1, S378x1] S378x2 1
  concatenates_S16384x128_S16384x378_S16384x506_d1 : Shape.Concatenates [S16384x128, S16384x378] S16384x506 1
  dot_S16384x27x128_S16384x27x128_S16384x27x27_2_2_1_1_0_0_wf : DotDims.WF S16384x27x128 S16384x27x128 S16384x27x27 [2] [2] [1] [1] [0] [0]
  gather_S16384x27x27_S378x2_S16384x378_0_12_n_n_12_1_1638411_wf : GatherDims.WF S16384x27x27 S378x2 S16384x378 [0] [1, 2] [] [1, 2] [] 1 ![16384, 1, 1]

variable [Facts₀]

def dot_S16384x27x128_S16384x27x128_S16384x27x27_2_2_1_1_0_0 : DotDims S16384x27x128 S16384x27x128 S16384x27x27 where
  lhsContracting := [2]
  rhsContracting := [2]
  lhsNonContracting := [1]
  rhsNonContracting := [1]
  lhsBatch := [0]
  rhsBatch := [0]
  wf := dot_S16384x27x128_S16384x27x128_S16384x27x27_2_2_1_1_0_0_wf
def gather_S16384x27x27_S378x2_S16384x378_0_12_n_n_12_1_1638411 : GatherDims S16384x27x27 S378x2 S16384x378 where
  offsetDims := [0]
  collapsedSliceDims := [1, 2]
  operandBatchingDims := []
  startIndicesBatchingDims := []
  startIndexMap := [1, 2]
  indexVectorDim := 1
  sliceSizes := ![16384, 1, 1]
  wf := gather_S16384x27x27_S378x2_S16384x378_0_12_n_n_12_1_1638411_wf

class Facts : Prop extends Facts₀ where

variable [Facts]
-- ==== Proof.PairSpec.lean ====
/-
  The pairwise interaction of 27 feature rows, as one function of the feature rows.

  For every batch row `b` there are 27 feature rows of 128 entries: row 0 is the dense feature row, rows 1 … 26
  the sparse ones.  The 378 pairs `(i, j)` with `j ≤ i` of the lower triangle (diagonal included) are numbered row by
  row; pair `p` has row number `pairRow p` and column number `pairCol p`, read off the two literal tables the
  reference program gathers with (signed, and clamped into `[0, 26]` as a gather clamps its start indices).
  The result row of `b` is the dense feature row (128 entries) followed by the 378 inner products
  `∑ d, f (pairRow p) b d * f (pairCol p) b d`.  Stated for any number `B` of batch rows, so that one block of
  512 batch rows and the whole array of 16384 are the same function of their feature rows.
-/
import proofs.«168496_j1082331758806_2_alg».proof.ReferenceIdeal
import Idealize.ShloMosaic.PureOps.Ideal
import Idealize.ShloMosaic.Lib.ValueIdx

noncomputable section

open scoped BigOperators

namespace Cert.PairSpec

open Idealize.ShloMosaic Idealize.ShloMosaic.ValueIdx

/-- Row number of pair `p` of the lower triangle. -/
def pairRow (p : Fin 378) : Fin 27 := ⟨min (Cert.ReferenceIdeal.lit0 p).toInt.toNat 26, by omega⟩
/-- Column number of pair `p` of the lower triangle. -/
def pairCol (p : Fin 378) : Fin 27 := ⟨min (Cert.ReferenceIdeal.lit1 p).toInt.toNat 26, by omega⟩

/-- The 27 feature rows of every batch row, read off a dense array [B, 128] and a sparse array [26, B, 128]:
    row 0 is the dense one, row `n` for `n ≥ 1` sparse feature `n - 1`. -/
def rows {B : Nat} (a0 : (⟨2, ![B, 128]⟩ : Shape).Idx → EReal) (a1 : (⟨3, ![26, B, 128]⟩ : Shape).Idx → EReal)
    (n : Fin 27) (b : Fin B) (d : Fin 128) : EReal :=
  if h : n.val = 0 then a0 (ix2 b d) else a1 (ix3 (⟨n.val - 1, by omega⟩ : Fin 26) b d)

/-- The inner product of feature rows `n` and `n'` of batch row `b`. -/
def dot {B : Nat} (f : Fin 27 → Fin B → Fin 128 → EReal) (n n' : Fin 27) (b : Fin B) : EReal :=
  ∑ d : Fin 128, f n b d * f n' b d

/-- The result: per batch row the dense feature row, then the 378 inner products of the triangle. -/
def interaction {B : Nat} (f : Fin 27 → Fin B → Fin 128 → EReal) : (⟨2, ![B, 506]⟩ : Shape).Idx → EReal := fun j =>
  if h : (j 1).val < 128 then f 0 ⟨(j 0).val, idx2_lt0 j⟩ ⟨(j 1).val, h⟩
  else dot f (pairRow ⟨(j 1).val - 128, by have := idx2_lt1 j; omega⟩) (pairCol ⟨(j 1).val - 128, by have := idx2_lt1 j; omega⟩)
    ⟨(j 0).val, idx2_lt0 j⟩

/-- In the first 128 columns: the dense feature row. -/
theorem interaction_dense {B : Nat} (f : Fin 27 → Fin B → Fin 128 → EReal) (b : Fin B) (q : Fin 506) (h : q.val < 128) :
    interaction f (ix2 b q) = f 0 b ⟨q.val, h⟩ := by
  unfold interaction
  rw [dif_pos (show ((ix2 b q : (⟨2, ![B, 506]⟩ : Shape).Idx) 1).val < 128 from h)]
  rfl

/-- Behind them: the inner product of pair `q - 128`. -/
theorem interaction_pair {B : Nat} (f : Fin 27 → Fin B → Fin 128 → EReal) (b : Fin B) (q : Fin 506) (p : Fin 378)
    (h : p.val + 128 = q.val) : interaction f (ix2 b q) = dot f (pairRow p) (pairCol p) b := by
  unfold interaction
  rw [dif_neg (show ¬((ix2 b q : (⟨2, ![B, 506]⟩ : Shape).Idx) 1).val < 128 from by show ¬q.val < 128; omega)]
  have e : (⟨((ix2 b q : (⟨2, ![B, 506]⟩ : Shape).Idx) 1).val - 128, by
      have := idx2_lt1 (ix2 b q : (⟨2, ![B, 506]⟩ : Shape).Idx); omega⟩ : Fin 378) = p :=
    Fin.ext (by show q.val - 128 = p.val; omega)
  rw [e]
  rfl

/-- The function depends on the feature rows only through their entries. -/
theorem interaction_congr {B : Nat} (f g : Fin 27 → Fin B → Fin 128 → EReal) (h : ∀ n b d, f n b d = g n b d) :
    interaction f = interaction g := by
  have : f = g := funext fun n => funext fun b => funext fun d => h n b d
  rw [this]

end Cert.PairSpec

end
-- ==== Proof.TileRow.lean ====
/-
  One row of the scratch.  The kernel body keeps the 27 features of its tile of 512 batch rows as [128, 512]
  matrices (feature entry on the rows, batch row on the columns), and for pair `p = (i, j)` of the lower triangle
  multiplies matrices `i` and `j` entry by entry, sums over the 128 feature entries, and stores the 512 sums as
  row `p` of a [378, 512] scratch.  So row `p`, column `r` of the scratch is the inner product of features `i`
  and `j` of tile row `r`: `∑ d, Aᵢ(r, d) · Aⱼ(r, d)`.  Over the extended reals this needs no law at all: the
  transposes and the three shape casts only rename indices, and the sum runs over the same 128 entries.
-/
import proofs.«168496_j1082331758806_2_alg».proof.Proof.Gen.KernelIdeal
import proofs.«168496_j1082331758806_2_alg».proof.Proof.PairSpec
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen Cert.PairSpec
open Idealize.ShloMosaic Idealize.ShloMosaic.ValueIdx

variable {F : FTy → Type} [FloatOps F]

/-- Slab `s` of the staged sparse block lies inside it. -/
theorem slab_inb (s : Fin 26) : ∀ a, (![s.val, 0, 0] : Fin 3 → Nat) a + S1x512x128.size a ≤ S26x512x128.size a := by
  intro a
  match a with
  | ⟨0, _⟩ => show s.val + 1 ≤ 26; omega
  | ⟨1, _⟩ => show 0 + 512 ≤ 512; omega
  | ⟨2, _⟩ => show 0 + 128 ≤ 128; omega

/-- The staged sparse block's slab `s`, as the body loads it. -/
def slabOf (x1 : Vec F S26x512x128 .f32) (s : Fin 26) : Vec F S1x512x128 .f32 :=
  View.ld x1 (Rect.unit ![s.val, 0, 0] S1x512x128.size (slab_inb s))

/-- Feature `n` of the tile as a [512, 128] matrix: the dense block, or sparse slab `n - 1`. -/
def featM (d0 : Vec F S512x128 .f32) (ds : Fin 26 → Vec F S1x512x128 .f32) (n : Fin 27) : FVec F S512x128 .f32 :=
  if h : n.val = 0 then d0 else shapeCast S512x128 (ds ⟨n.val - 1, by omega⟩) shapeCasts_S1x512x128_S512x128

/-- One scratch row: both feature matrices transposed, multiplied entry by entry, summed over the feature axis. -/
def rowSum (A B : FVec F S512x128 .f32) : FVec F S1x512 .f32 :=
  shapeCast S1x512 (shapeCast S512 (shapeCast S1x512 (multiReduction .add [0] S512
    (mulf (transpose S128x512 [1, 0] A transposes_S512x128_p1_0_S128x512) (transpose S128x512 [1, 0] B transposes_S512x128_p1_0_S128x512))
    0x00000000#32 reduces_S128x512_S512 (.inl rfl) rfl) shapeCasts_S512_S1x512) shapeCasts_S1x512_S512) shapeCasts_S512_S1x512

/-- A scratch row at column `r`: the inner product of the two features' rows `r`. -/
theorem rowSum_apply (A B : FVec Ideal S512x128 .f32) (u : Fin 1) (r : Fin 512) :
    rowSum A B (ix2 u r) = ∑ d : Fin 128, A (ix2 r d) * B (ix2 r d) := by
  unfold rowSum
  rw [shapeCast_a_1a_apply, shapeCast_1a_a_apply, shapeCast_a_1a_apply]
  refine (Ideal.multiReduction_add_single _ 0x00000000#32 reduces_S128x512_S512 (.inl rfl) rfl (ix1 r)).trans ?_
  refine Finset.sum_congr rfl fun (d : Fin 128) _ => ?_
  have hl : reduces_S128x512_S512.lift (ix1 r) d = ix2 d r :=
    funext fun a => match a with | ⟨0, _⟩ => rfl | ⟨1, _⟩ => rfl
  rw [hl]
  show transpose S128x512 [1, 0] A transposes_S512x128_p1_0_S128x512 (ix2 d r)
    * transpose S128x512 [1, 0] B transposes_S512x128_p1_0_S128x512 (ix2 d r) = _
  rw [transpose_ix2_apply, transpose_ix2_apply]

/-- What the scratch holds once all pairs are stored: row `p`, column `r` is the inner product of the features of
    pair `p` of tile row `r`. -/
def scratchFn (d0 : Vec Ideal S512x128 .f32) (ds : Fin 26 → Vec Ideal S1x512x128 .f32) : S378x512.Idx → EReal := fun y =>
  dot (fun n r d => featM d0 ds n (ix2 r d)) (pairRow ⟨(y 0).val, idx2_lt0 y⟩) (pairCol ⟨(y 0).val, idx2_lt0 y⟩) ⟨(y 1).val, idx2_lt1 y⟩

theorem scratchFn_apply (d0 : Vec Ideal S512x128 .f32) (ds : Fin 26 → Vec Ideal S1x512x128 .f32) (y : S378x512.Idx)
    (p : Fin 378) (r : Fin 512) (h0 : (y 0).val = p.val) (h1 : (y 1).val = r.val) :
    scratchFn d0 ds y = dot (fun n r d => featM d0 ds n (ix2 r d)) (pairRow p) (pairCol p) r := by
  unfold scratchFn
  have e0 : (⟨(y 0).val, idx2_lt0 y⟩ : Fin 378) = p := Fin.ext h0
  have e1 : (⟨(y 1).val, idx2_lt1 y⟩ : Fin 512) = r := Fin.ext h1
  rw [e0, e1]

/-- THE STORE OF PAIR `p = (i, j)` IS ROW `p` OF THAT FUNCTION: the row sum of features `i` and `j`, stored through
    the rectangle of row `p`, agrees with `scratchFn` at every index of the rectangle. -/
theorem row_ok (d0 : Vec Ideal S512x128 .f32) (ds : Fin 26 → Vec Ideal S1x512x128 .f32) (p : Nat) (hp : p < 378) (i j : Nat)
    (hi : i < 27) (hj : j < 27) (ei : pairRow ⟨p, hp⟩ = ⟨i, hi⟩) (ej : pairCol ⟨p, hp⟩ = ⟨j, hj⟩)
    (inb : ∀ a, (![p, 0] : Fin 2 → Nat) a + S1x512.size a ≤ S378x512.size a)
    (x : S1x512.Idx) :
    rowSum (featM d0 ds ⟨i, hi⟩) (featM d0 ds ⟨j, hj⟩) x
      = scratchFn d0 ds ((Rect.unit (s := S378x512) ![p, 0] S1x512.size inb).emb x) := by
  obtain ⟨u, r, rfl⟩ : ∃ (u : Fin 1) (r : Fin 512), x = ix2 u r := ⟨x 0, x 1, eq_ix2 x⟩
  have hu : u.val = 0 := by have := u.isLt; omega
  rw [rowSum_apply, scratchFn_apply d0 ds _ ⟨p, hp⟩ r (by show p + 1 * u.val = p; omega) (by show 0 + 1 * r.val = r.val; omega),
    ei, ej]
  rfl

end Cert.KernelIdeal.Tile

end
-- ==== Proof.TilePairs.lean ====
/- A table of cases written by that script: for each of the 378 rows of the kernel's scratch, its number and the
   pair (i, j) of the lower triangle whose inner products it holds (row p = i(i+1)/2 + j). Each line cites the one
   lemma Tile.row_ok (TileRow.lean) at that row and pair (row number, its bound, i, j, their bounds, then the two
   table look-ups pairRow p = i and pairCol p = j, evaluated). -/
import proofs.«168496_j1082331758806_2_alg».proof.Proof.Gen.KernelIdeal.Frame
import proofs.«168496_j1082331758806_2_alg».proof.Proof.TileRow
import Idealize.ShloMosaic.Lib.Tactic

set_option maxRecDepth 65536

noncomputable section

namespace Cert.KernelIdeal.Tile

open Cert.KernelIdeal Cert.KernelIdeal.Gen Cert.PairSpec
open Idealize.ShloMosaic Idealize.ShloMosaic.TcCoe Idealize.SL.Sem

theorem zero_offsets : (![0, 0] : Fin 2 → Nat) = fun _ => 0 := funext fun a => by fin_cases a <;> rfl

set_option maxHeartbeats 8000000 in
/-- Every store the body makes into the scratch is a row of `scratchFn` of the staged blocks: the run's list of 378
    stores (last first), each the row sum of its pair's two features through the rectangle of its row. -/
theorem scratch_pieces (c : Dev nD) (arg1 : Memref sig .tc .vmem S512x128 .f32) (harg1 : arg1.IsWhole)
    (arg2 : Memref sig .tc .vmem S26x512x128 .f32) (harg2 : arg2.IsWhole)
    (x0 : Vec Ideal S512x128 .f32) (x1 : Vec Ideal S26x512x128 .f32) :
    ∀ pc ∈ kernelRun0_A.sl.HS0_378 c arg1 harg1 arg2 harg2 x0 x1, ∀ x : pc.1.shape.Idx,
      pc.2 x = scratchFn x0 (slabOf x1) (pc.1.emb x) := by
  delta kernelRun0_A.sl.HS0_378
  sl_unfold_run_names
  simp only [View.readAt_eq_ld, harg1.read_unread, harg2.read_unread, View.ld_unit_zero (S := S512x128) zero_offsets]
  simp only [List.forall_mem_cons, List.forall_mem_nil, and_true]
  repeat' constructor
  · exact fun x => row_ok x0 (slabOf x1) 377 (by decide) 26 26 (by decide) (by decide) (by decide +kernel) (by decide +kernel) _ x
  · exact fun x => row_ok x0 (slabOf x1) 376 (by decide) 26 25 (by decide) (by decide) (by decide +kernel) (by decide +kernel) _ x
  · exact fun x => row_ok x0 (slabOf x1) 375 (by decide) 26 24 (by decide) (by decide) (by decide +kernel) (by decide +kernel) _ x
  · exact fun x => row_ok x0 (slabOf x1) 374 (by decide) 26 23 (by decide) (by decide) (by decide +kernel) (by decide +kernel) _ x
  · exact fun x => row_ok x0 (slabOf x1) 373 (by decide) 26 22 (by decide) (by decide) (by decide +kernel) (by decide +kernel) _ x
  · exact fun x => row_ok x0 (slabOf x1) 372 (by decide) 26 21 (by decide) (by decide) (by decide +kernel) (by decide +kernel) _ x
  · exact fun x => row_ok x0 (slabOf x1) 371 (by decide) 26 20 (by decide) (by decide) (by decide +kernel) (by decide +kernel) _ x
  · exact fun x => row_ok x0 (slabOf x1) 370 (by decide) 26 19 (by decide) (by decide) (by decide +kernel) (by decide +kernel) _ x
  · exact fun x => row_ok x0 (slabOf x1) 369 (by decide) 26 18 (by decide) (by decide) (by decide +kernel) (by decide +kernel) _ x
  · exact fun x => row_ok x0 (slabOf x1) 368 (by decide) 26 17 (by decide) (by decide) (by decide +kernel) (by decide +kernel) _ x
  · exact fun x => row_ok x0 (slabOf x1) 367 (by decide) 26 16 (by decide) (by decide) (by decide +kernel) (by decide +kernel) _ x
  · exact fun x => row_ok x0 (slabOf x1) 366 (by decide) 26 15 (by decide) (by decide) (by decide +kernel) (by decide +kernel) _ x
  · exact fun x => row_ok x0 (slabOf x1) 365 (by decide) 26 14 (by decide) (by decide) (by decide +kernel) (by decide +kernel) _ x
  · exact fun x => row_ok x0 (slabOf x1) 364 (by decide) 26 13 (by decide) (by decide) (by decide +kernel) (by decide +kernel) _ x
  · exact fun x => row_ok x0 (slabOf x1) 363 (by decide) 26 12 (by decide) (by decide) (by decide +kernel) (by decide +kernel) _ x
  · exact fun x => row_ok x0 (slabOf x1) 362 (by decide) 26 11 (by decide) (by decide) (by decide +kernel) (by decide +kernel) _ x
  · exact fun x => row_ok x0 (slabOf x1) 361 (by decide) 26 10 (by decide) (by decide) (by decide +kernel) (by decide +kernel) _ x
  · exact fun x => row_ok x0 (slabOf x1) 360 (by decide) 26 9 (by decide) (by decide) (by decide +kernel) (by decide +kernel) _ x
  · exact fun x => row_ok x0 (slabOf x1) 359 (by decide) 26 8 (by decide) (by decide) (by decide +kernel) (by decide +kernel) _ x
  · exact fun x => row_ok x0 (slabOf x1) 358 (by decide) 26 7 (by decide) (by decide) (by decide +kernel) (by decide +kernel) _ x
  · exact fun x => row_ok x0 (slabOf x1) 357 (by decide) 26 6 (by decide) (by decide) (by decide +kernel) (by decide +kernel) _ x
  · exact fun x => row_ok x0 (slabOf x1) 356 (by decide) 26 5 (by decide) (by decide) (by decide +kernel) (by decide +kernel) _ x
  · exact fun x => row_ok x0 (slabOf x1) 355 (by decide) 26 4 (by decide) (by decide) (by decide +kernel) (by decide +kernel) _ x
  · exact fun x => row_ok x0 (slabOf x1) 354 (by decide) 26 3 (by decide) (by decide) (by decide +kernel) (by decide +kernel) _ x
  · exact fun x => row_ok x0 (slabOf x1) 353 (by decide) 26 2 (by decide) (by decide) (by decide +kernel) (by decide +kernel) _ x
  · exact fun x => row_ok x0 (slabOf x1) 352 (by decide) 26 1 (by decide) (by decide) (by decide +kernel) (by decide +kernel) _ x
  · exact fun x => row_ok x0 (slabOf x1) 351 (by decide) 26 0 (by decide) (by decide) (by decide +kernel) (by decide +kernel) _ x
  · exact fun x => row_ok x0 (slabOf x1) 350 (by decide) 25 25 (by decide) (by decide) (by decide +kernel) (by decide +kernel) _ x
  · exact fun x => row_ok x0 (slabOf x1) 349 (by decide) 25 24 (by decide) (by decide) (by decide +kernel) (by decide +kernel) _ x
  · exact fun x => row_ok x0 (slabOf x1) 348 (by decide) 25 23 (by decide) (by decide) (by decide +kernel) (by decide +kernel) _ x
  · exact fun x => row_ok x0 (slabOf x1) 347 (by decide) 25 22 (by decide) (by decide) (by decide +kernel) (by decide +kernel) _ x
  · exact fun x => row_ok x0 (slabOf x1) 346 (by decide) 25 21 (by decide) (by decide) (by decide +kernel) (by decide +kernel) _ x
  · exact fun x => row_ok x0 (slabOf x1) 345 (by decide) 25 20 (by decide) (by decide) (by decide +kernel) (by decide +kernel) _ x
  · exact fun x => row_ok x0 (slabOf x1) 344 (by decide) 25 19 (by decide) (by decide) (by decide +kernel) (by decide +kernel) _ x
  · exact fun x => row_ok x0 (slabOf x1) 343 (by decide) 25 18 (by decide) (by decide) (by decide +kernel) (by decide +kernel) _ x
  · exact fun x => row_ok x0 (slabOf x1) 342 (by decide) 25 17 (by decide) (by decide) (by decide +kernel) (by decide +kernel) _ x
  · exact fun x => row_ok x0 (slabOf x1) 341 (by decide) 25 16 (by decide) (by decide) (by decide +kernel) (by decide +kernel) _ x
  · exact fun x => row_ok x0 (slabOf x1) 340 (by decide) 25 15 (by decide) (by decide) (by decide +kernel) (by decide +kernel) _ x
  · exact fun x => row_ok x0 (slabOf x1) 339 (by decide) 25 14 (by decide) (by decide) (by decide +kernel) (by decide +kernel) _ x
  · exact fun x => row_ok x0 (slabOf x1) 338 (by decide) 25 13 (by decide) (by decide) (by decide +kernel) (by decide +kernel) _ x
  · exact fun x => row_ok x0 (slabOf x1) 337 (by decide) 25 12 (by decide) (by decide) (by decide +kernel) (by decide +kernel) _ x
  · exact fun x => row_ok x0 (slabOf x1) 336 (by decide) 25 11 (by decide) (by decide) (by decide +kernel) (by decide +kernel) _ x
  · exact fun x => row_ok x0 (slabOf x1) 335 (by decide) 25 10 (by decide) (by decide) (by decide +kernel) (by decide +kernel) _ x
  · exact fun x => row_ok x0 (slabOf x1) 334 (by decide) 25 9 (by decide) (by decide) (by decide +kernel) (by decide +kernel) _ x
  · exact fun x => row_ok x0 (slabOf x1) 333 (by decide) 25 8 (by decide) (by decide) (by decide +kernel) (by decide +kernel) _ x
  · exact fun x => row_ok x0 (slabOf x1) 332 (by decide) 25 7 (by decide) (by decide) (by decide +kernel) (by decide +kernel) _ x
  · exact fun x => row_ok x0 (slabOf x1) 331 (by decide) 25 6 (by decide) (by decide) (by decide +kernel) (by decide +kernel) _ x
  · exact fun x => row_ok x0 (slabOf x1) 330 (by decide) 25 5 (by decide) (by decide) (by decide +kernel) (by decide +kernel) _ x
  · exact fun x => row_ok x0 (slabOf x1) 329 (by decide) 25 4 (by decide) (by decide) (by decide +kernel) (by decide +kernel) _ x
  · exact fun x => row_ok x0 (slabOf x1) 328 (by decide) 25 3 (by decide) (by decide) (by decide +kernel) (by decide +kernel) _ x
  · exact fun x => row_ok x0 (slabOf x1) 327 (by decide) 25 2 (by decide) (by decide) (by decide +kernel) (by decide +kernel) _ x
  · exact fun x => row_ok x0 (slabOf x1) 326 (by decide) 25 1 (by decide) (by decide) (by decide +kernel) (by decide +kernel) _ x
  · exact fun x => row_ok x0 (slabOf x1) 325 (by decide) 25 0 (by decide) (by decide) (by decide +kernel) (by decide +kernel) _ x
  · exact fun x => row_ok x0 (slabOf x1) 324 (by decide) 24 24 (by decide) (by decide) (by decide +kernel) (by decide +kernel) _ x
  · exact fun x => row_ok x0 (slabOf x1) 323 (by decide) 24 23 (by decide) (by decide) (by decide +kernel) (by decide +kernel) _ x
  · exact fun x => row_ok x0 (slabOf x1) 322 (by decide) 24 22 (by decide) (by decide) (by decide +kernel) (by decide +kernel) _ x
  · exact fun x => row_ok x0 (slabOf x1) 321 (by decide) 24 21 (by decide) (by decide) (by decide +kernel) (by decide +kernel) _ x
  · exact fun x => row_ok x0 (slabOf x1) 320 (by decide) 24 20 (by decide) (by decide) (by decide +kernel) (by decide +kernel) _ x
  · exact fun x => row_ok x0 (slabOf x1) 319 (by decide) 24 19 (by decide) (by decide) (by decide +kernel) (by decide +kernel) _ x
  · exact fun x => row_ok x0 (slabOf x1) 318 (by decide) 24 18 (by decide) (by decide) (by decide +kernel) (by decide +kernel) _ x
  · exact fun x => row_ok x0 (slabOf x1) 317 (by decide) 24 17 (by decide) (by decide) (by decide +kernel) (by decide +kernel) _ x
  · exact fun x => row_ok x0 (slabOf x1) 316 (by decide) 24 16 (by decide) (by decide) (by decide +kernel) (by decide +kernel) _ x
  · exact fun x => row_ok x0 (slabOf x1) 315 (by decide) 24 15 (by decide) (by decide) (by decide +kernel) (by decide +kernel) _ x
  · exact fun x => row_ok x0 (slabOf x1) 314 (by decide) 24 14 (by decide) (by decide) (by decide +kernel) (by decide +kernel) _ x
  · exact fun x => row_ok x0 (slabOf x1) 313 (by decide) 24 13 (by decide) (by decide) (by decide +kernel) (by decide +kernel) _ x
  · exact fun x => row_ok x0 (slabOf x1) 312 (by decide) 24 12 (by decide) (by decide) (by decide +kernel) (by decide +kernel) _ x
  · exact fun x => row_ok x0 (slabOf x1) 311 (by decide) 24 11 (by decide) (by decide) (by decide +kernel) (by decide +kernel) _ x
  · exact fun x => row_ok x0 (slabOf x1) 310 (by decide) 24 10 (by decide) (by decide) (by decide +kernel) (by decide +kernel) _ x
  · exact fun x => row_ok x0 (slabOf x1) 309 (by decide) 24 9 (by decide) (by decide) (by decide +kernel) (by decide +kernel) _ x
  · exact fun x => row_ok x0 (slabOf x1) 308 (by decide) 24 8 (by decide) (by decide) (by decide +kernel) (by decide +kernel) _ x
  · exact fun x => row_ok x0 (slabOf x1) 307 (by decide) 24 7 (by decide) (by decide) (by decide +kernel) (by decide +kernel) _ x
  · exact fun x => row_ok x0 (slabOf x1) 306 (by decide) 24 6 (by decide) (by decide) (by decide +kernel) (by decide +kernel) _ x
  · exact fun x => row_ok x0 (slabOf x1) 305 (by decide) 24 5 (by decide) (by decide) (by decide +kernel) (by decide +kernel) _ x
  · exact fun x => row_ok x0 (slabOf x1) 304 (by decide) 24 4 (by decide) (by decide) (by decide +kernel) (by decide +kernel) _ x
  · exact fun x => row_ok x0 (slabOf x1) 303 (by decide) 24 3 (by decide) (by decide) (by decide +kernel) (by decide +kernel) _ x
  · exact fun x => row_ok x0 (slabOf x1) 302 (by decide) 24 2 (by decide) (by decide) (by decide +kernel) (by decide +kernel) _ x
  · exact fun x => row_ok x0 (slabOf x1) 301 (by decide) 24 1 (by decide) (by decide) (by decide +kernel) (by decide +kernel) _ x
  · exact fun x => row_ok x0 (slabOf x1) 300 (by decide) 24 0 (by decide) (by decide) (by decide +kernel) (by decide +kernel) _ x
  · exact fun x => row_ok x0 (slabOf x1) 299 (by decide) 23 23 (by decide) (by decide) (by decide +kernel) (by decide +kernel) _ x
  · exact fun x => row_ok x0 (slabOf x1) 298 (by decide) 23 22 (by decide) (by decide) (by decide +kernel) (by decide +kernel) _ x
  · exact fun x => row_ok x0 (slabOf x1) 297 (by decide) 23 21 (by decide) (by decide) (by decide +kernel) (by decide +kernel) _ x
  · exact fun x => row_ok x0 (slabOf x1) 296 (by decide) 23 20 (by decide) (by decide) (by decide +kernel) (by decide +kernel) _ x
  · exact fun x => row_ok x0 (slabOf x1) 295 (by decide) 23 19 (by decide) (by decide) (by decide +kernel) (by decide +kernel) _ x
  · exact fun x => row_ok x0 (slabOf x1) 294 (by decide) 23 18 (by decide) (by decide) (by decide +kernel) (by decide +kernel) _ x
  · exact fun x => row_ok x0 (slabOf x1) 293 (by decide) 23 17 (by decide) (by decide) (by decide +kernel) (by decide +kernel) _ x
  · exact fun x => row_ok x0 (slabOf x1) 292 (by decide) 23 16 (by decide) (by decide) (by decide +kernel) (by decide +kernel) _ x
  · exact fun x => row_ok x0 (slabOf x1) 291 (by decide) 23 15 (by decide) (by decide) (by decide +kernel) (by decide +kernel) _ x
  · exact fun x => row_ok x0 (slabOf x1) 290 (by decide) 23 14 (by decide) (by decide) (by decide +kernel) (by decide +kernel) _ x
  · exact fun x => row_ok x0 (slabOf x1) 289 (by decide) 23 13 (by decide) (by decide) (by decide +kernel) (by decide +kernel) _ x
  · exact fun x => row_ok x0 (slabOf x1) 288 (by decide) 23 12 (by decide) (by decide) (by decide +kernel) (by decide +kernel) _ x
  · exact fun x => row_ok x0 (slabOf x1) 287 (by decide) 23 11 (by decide) (by decide) (by decide +kernel) (by decide +kernel) _ x
  · exact fun x => row_ok x0 (slabOf x1) 286 (by decide) 23 10 (by decide) (by decide) (by decide +kernel) (by decide +kernel) _ x
  · exact fun x => row_ok x0 (slabOf x1) 285 (by decide) 23 9 (by decide) (by decide) (by decide +kernel) (by decide +kernel) _ x
  · exact fun x => row_ok x0 (slabOf x1) 284 (by decide) 23 8 (by decide) (by decide) (by decide +kernel) (by decide +kernel) _ x
  · exact fun x => row_ok x0 (slabOf x1) 283 (by decide) 23 7 (by decide) (by decide) (by decide +kernel) (by decide +kernel) _ x
  · exact fun x => row_ok x0 (slabOf x1) 282 (by decide) 23 6 (by decide) (by decide) (by decide +kernel) (by decide +kernel) _ x
  · exact fun x => row_ok x0 (slabOf x1) 281 (by decide) 23 5 (by decide) (by decide) (by decide +kernel) (by decide +kernel) _ x
  · exact fun x => row_ok x0 (slabOf x1) 280 (by decide) 23 4 (by decide) (by decide) (by decide +kernel) (by decide +kernel) _ x
  · exact fun x => row_ok x0 (slabOf x1) 279 (by decide) 23 3 (by decide) (by decide) (by decide +kernel) (by decide +kernel) _ x
  · exact fun x => row_ok x0 (slabOf x1) 278 (by decide) 23 2 (by decide) (by decide) (by decide +kernel) (by decide +kernel) _ x
  · exact fun x => row_ok x0 (slabOf x1) 277 (by decide) 23 1 (by decide) (by decide) (by decide +kernel) (by decide +kernel) _ x
  · exact fun x => row_ok x0 (slabOf x1) 276 (by decide) 23 0 (by decide) (by decide) (by decide +kernel) (by decide +kernel) _ x
  · exact fun x => row_ok x0 (slabOf x1) 275 (by decide) 22 22 (by decide) (by decide) (by decide +kernel) (by decide +kernel) _ x
  · exact fun x => row_ok x0 (slabOf x1) 274 (by decide) 22 21 (by decide) (by decide) (by decide +kernel) (by decide +kernel) _ x
  · exact fun x => row_ok x0 (slabOf x1) 273 (by decide) 22 20 (by decide) (by decide) (by decide +kernel) (by decide +kernel) _ x
  · exact fun x => row_ok x0 (slabOf x1) 272 (by decide) 22 19 (by decide) (by decide) (by decide +kernel) (by decide +kernel) _ x
  · exact fun x => row_ok x0 (slabOf x1) 271 (by decide) 22 18 (by decide) (by decide) (by decide +kernel) (by decide +kernel) _ x
  · exact fun x => row_ok x0 (slabOf x1) 270 (by decide) 22 17 (by decide) (by decide) (by decide +kernel) (by decide +kernel) _ x
  · exact fun x => row_ok x0 (slabOf x1) 269 (by decide) 22 16 (by decide) (by decide) (by decide +kernel) (by decide +kernel) _ x
  · exact fun x => row_ok x0 (slabOf x1) 268 (by decide) 22 15 (by decide) (by decide) (by decide +kernel) (by decide +kernel) _ x
  · exact fun x => row_ok x0 (slabOf x1) 267 (by decide) 22 14 (by decide) (by decide) (by decide +kernel) (by decide +kernel) _ x
  · exact fun x => row_ok x0 (slabOf x1) 266 (by decide) 22 13 (by decide) (by decide) (by decide +kernel) (by decide +kernel) _ x
  · exact fun x => row_ok x0 (slabOf x1) 265 (by decide) 22 12 (by decide) (by decide) (by decide +kernel) (by decide +kernel) _ x
  · exact fun x => row_ok x0 (slabOf x1) 264 (by decide) 22 11 (by decide) (by decide) (by decide +kernel) (by decide +kernel) _ x
  · exact fun x => row_ok x0 (slabOf x1) 263 (by decide) 22 10 (by decide) (by decide) (by decide +kernel) (by decide +kernel) _ x
  · exact fun x => row_ok x0 (slabOf x1) 262 (by decide) 22 9 (by decide) (by decide) (by decide +kernel) (by decide +kernel) _ x
  · exact fun x => row_ok x0 (slabOf x1) 261 (by decide) 22 8 (by decide) (by decide) (by decide +kernel) (by decide +kernel) _ x
  · exact fun x => row_ok x0 (slabOf x1) 260 (by decide) 22 7 (by decide) (by decide) (by decide +kernel) (by decide +kernel) _ x
  · exact fun x => row_ok x0 (slabOf x1) 259 (by decide) 22 6 (by decide) (by decide) (by decide +kernel) (by decide +kernel) _ x
  · exact fun x => row_ok x0 (slabOf x1) 258 (by decide) 22 5 (by decide) (by decide) (by decide +kernel) (by decide +kernel) _ x
  · exact fun x => row_ok x0 (slabOf x1) 257 (by decide) 22 4 (by decide) (by decide) (by decide +kernel) (by decide +kernel) _ x
  · exact fun x => row_ok x0 (slabOf x1) 256 (by decide) 22 3 (by decide) (by decide) (by decide +kernel) (by decide +kernel) _ x
  · exact fun x => row_ok x0 (slabOf x1) 255 (by decide) 22 2 (by decide) (by decide) (by decide +kernel) (by decide +kernel) _ x
  · exact fun x => row_ok x0 (slabOf x1) 254 (by decide) 22 1 (by decide) (by decide) (by decide +kernel) (by decide +kernel) _ x
  · exact fun x => row_ok x0 (slabOf x1) 253 (by decide) 22 0 (by decide) (by decide) (by decide +kernel) (by decide +kernel) _ x
  · exact fun x => row_ok x0 (slabOf x1) 252 (by decide) 21 21 (by decide) (by decide) (by decide +kernel) (by decide +kernel) _ x
  · exact fun x => row_ok x0 (slabOf x1) 251 (by decide) 21 20 (by decide) (by decide) (by decide +kernel) (by decide +kernel) _ x
  · exact fun x => row_ok x0 (slabOf x1) 250 (by decide) 21 19 (by decide) (by decide) (by decide +kernel) (by decide +kernel) _ x
  · exact fun x => row_ok x0 (slabOf x1) 249 (by decide) 21 18 (by decide) (by decide) (by decide +kernel) (by decide +kernel) _ x
  · exact fun x => row_ok x0 (slabOf x1) 248 (by decide) 21 17 (by decide) (by decide) (by decide +kernel) (by decide +kernel) _ x
  · exact fun x => row_ok x0 (slabOf x1) 247 (by decide) 21 16 (by decide) (by decide) (by decide +kernel) (by decide +kernel) _ x
  · exact fun x => row_ok x0 (slabOf x1) 246 (by decide) 21 15 (by decide) (by decide) (by decide +kernel) (by decide +kernel) _ x
  · exact fun x => row_ok x0 (slabOf x1) 245 (by decide) 21 14 (by decide) (by decide) (by decide +kernel) (by decide +kernel) _ x
  · exact fun x => row_ok x0 (slabOf x1) 244 (by decide) 21 13 (by decide) (by decide) (by decide +kernel) (by decide +kernel) _ x
  · exact fun x => row_ok x0 (slabOf x1) 243 (by decide) 21 12 (by decide) (by decide) (by decide +kernel) (by decide +kernel) _ x
  · exact fun x => row_ok x0 (slabOf x1) 242 (by decide) 21 11 (by decide) (by decide) (by decide +kernel) (by decide +kernel) _ x
  · exact fun x => row_ok x0 (slabOf x1) 241 (by decide) 21 10 (by decide) (by decide) (by decide +kernel) (by decide +kernel) _ x
  · exact fun x => row_ok x0 (slabOf x1) 240 (by decide) 21 9 (by decide) (by decide) (by decide +kernel) (by decide +kernel) _ x
  · exact fun x => row_ok x0 (slabOf x1) 239 (by decide) 21 8 (by decide) (by decide) (by decide +kernel) (by decide +kernel) _ x
  · exact fun x => row_ok x0 (slabOf x1) 238 (by decide) 21 7 (by decide) (by decide) (by decide +kernel) (by decide +kernel) _ x
  · exact fun x => row_ok x0 (slabOf x1) 237 (by decide) 21 6 (by decide) (by decide) (by decide +kernel) (by decide +kernel) _ x
  · exact fun x => row_ok x0 (slabOf x1) 236 (by decide) 21 5 (by decide) (by decide) (by decide +kernel) (by decide +kernel) _ x
  · exact fun x => row_ok x0 (slabOf x1) 235 (by decide) 21 4 (by decide) (by decide) (by decide +kernel) (by decide +kernel) _ x
  · exact fun x => row_ok x0 (slabOf x1) 234 (by decide) 21 3 (by decide) (by decide) (by decide +kernel) (by decide +kernel) _ x
  · exact fun x => row_ok x0 (slabOf x1) 233 (by decide) 21 2 (by decide) (by decide) (by decide +kernel) (by decide +kernel) _ x
  · exact fun x => row_ok x0 (slabOf x1) 232 (by decide) 21 1 (by decide) (by decide) (by decide +kernel) (by decide +kernel) _ x
  · exact fun x => row_ok x0 (slabOf x1) 231 (by decide) 21 0 (by decide) (by decide) (by decide +kernel) (by decide +kernel) _ x
  · exact fun x => row_ok x0 (slabOf x1) 230 (by decide) 20 20 (by decide) (by decide) (by decide +kernel) (by decide +kernel) _ x
  · exact fun x => row_ok x0 (slabOf x1) 229 (by decide) 20 19 (by decide) (by decide) (by decide +kernel) (by decide +kernel) _ x
  · exact fun x => row_ok x0 (slabOf x1) 228 (by decide) 20 18 (by decide) (by decide) (by decide +kernel) (by decide +kernel) _ x
  · exact fun x => row_ok x0 (slabOf x1) 227 (by decide) 20 17 (by decide) (by decide) (by decide +kernel) (by decide +kernel) _ x
  · exact fun x => row_ok x0 (slabOf x1) 226 (by decide) 20 16 (by decide) (by decide) (by decide +kernel) (by decide +kernel) _ x
  · exact fun x => row_ok x0 (slabOf x1) 225 (by decide) 20 15 (by decide) (by decide) (by decide +kernel) (by decide +kernel) _ x
  · exact fun x => row_ok x0 (slabOf x1) 224 (by decide) 20 14 (by decide) (by decide) (by decide +kernel) (by decide +kernel) _ x
  · exact fun x => row_ok x0 (slabOf x1) 223 (by decide) 20 13 (by decide) (by decide) (by decide +kernel) (by decide +kernel) _ x
  · exact fun x => row_ok x0 (slabOf x1) 222 (by decide) 20 12 (by decide) (by decide) (by decide +kernel) (by decide +kernel) _ x
  · exact fun x => row_ok x0 (slabOf x1) 221 (by decide) 20 11 (by decide) (by decide) (by decide +kernel) (by decide +kernel) _ x
  · exact fun x => row_ok x0 (slabOf x1) 220 (by decide) 20 10 (by decide) (by decide) (by decide +kernel) (by decide +kernel) _ x
  · exact fun x => row_ok x0 (slabOf x1) 219 (by decide) 20 9 (by decide) (by decide) (by decide +kernel) (by decide +kernel) _ x
  · exact fun x => row_ok x0 (slabOf x1) 218 (by decide) 20 8 (by decide) (by decide) (by decide +kernel) (by decide +kernel) _ x
  · exact fun x => row_ok x0 (slabOf x1) 217 (by decide) 20 7 (by decide) (by decide) (by decide +kernel) (by decide +kernel) _ x
  · exact fun x => row_ok x0 (slabOf x1) 216 (by decide) 20 6 (by decide) (by decide) (by decide +kernel) (by decide +kernel) _ x
  · exact fun x => row_ok x0 (slabOf x1) 215 (by decide) 20 5 (by decide) (by decide) (by decide +kernel) (by decide +kernel) _ x
  · exact fun x => row_ok x0 (slabOf x1) 214 (by decide) 20 4 (by decide) (by decide) (by decide +kernel) (by decide +kernel) _ x
  · exact fun x => row_ok x0 (slabOf x1) 213 (by decide) 20 3 (by decide) (by decide) (by decide +kernel) (by decide +kernel) _ x
  · exact fun x => row_ok x0 (slabOf x1) 212 (by decide) 20 2 (by decide) (by decide) (by decide +kernel) (by decide +kernel) _ x
  · exact fun x => row_ok x0 (slabOf x1) 211 (by decide) 20 1 (by decide) (by decide) (by decide +kernel) (by decide +kernel) _ x
  · exact fun x => row_ok x0 (slabOf x1) 210 (by decide) 20 0 (by decide) (by decide) (by decide +kernel) (by decide +kernel) _ x
  · exact fun x => row_ok x0 (slabOf x1) 209 (by decide) 19 19 (by decide) (by decide) (by decide +kernel) (by decide +kernel) _ x
  · exact fun x => row_ok x0 (slabOf x1) 208 (by decide) 19 18 (by decide) (by decide) (by decide +kernel) (by decide +kernel) _ x
  · exact fun x => row_ok x0 (slabOf x1) 207 (by decide) 19 17 (by decide) (by decide) (by decide +kernel) (by decide +kernel) _ x
  · exact fun x => row_ok x0 (slabOf x1) 206 (by decide) 19 16 (by decide) (by decide) (by decide +kernel) (by decide +kernel) _ x
  · exact fun x => row_ok x0 (slabOf x1) 205 (by decide) 19 15 (by decide) (by decide) (by decide +kernel) (by decide +kernel) _ x
  · exact fun x => row_ok x0 (slabOf x1) 204 (by decide) 19 14 (by decide) (by decide) (by decide +kernel) (by decide +kernel) _ x
  · exact fun x => row_ok x0 (slabOf x1) 203 (by decide) 19 13 (by decide) (by decide) (by decide +kernel) (by decide +kernel) _ x
  · exact fun x => row_ok x0 (slabOf x1) 202 (by decide) 19 12 (by decide) (by decide) (by decide +kernel) (by decide +kernel) _ x
  · exact fun x => row_ok x0 (slabOf x1) 201 (by decide) 19 11 (by decide) (by decide) (by decide +kernel) (by decide +kernel) _ x
  · exact fun x => row_ok x0 (slabOf x1) 200 (by decide) 19 10 (by decide) (by decide) (by decide +kernel) (by decide +kernel) _ x
  · exact fun x => row_ok x0 (slabOf x1) 199 (by decide) 19 9 (by decide) (by decide) (by decide +kernel) (by decide +kernel) _ x
  · exact fun x => row_ok x0 (slabOf x1) 198 (by decide) 19 8 (by decide) (by decide) (by decide +kernel) (by decide +kernel) _ x
  · exact fun x => row_ok x0 (slabOf x1) 197 (by decide) 19 7 (by decide) (by decide) (by decide +kernel) (by decide +kernel) _ x
  · exact fun x => row_ok x0 (slabOf x1) 196 (by decide) 19 6 (by decide) (by decide) (by decide +kernel) (by decide +kernel) _ x
  · exact fun x => row_ok x0 (slabOf x1) 195 (by decide) 19 5 (by decide) (by decide) (by decide +kernel) (by decide +kernel) _ x
  · exact fun x => row_ok x0 (slabOf x1) 194 (by decide) 19 4 (by decide) (by decide) (by decide +kernel) (by decide +kernel) _ x
  · exact fun x => row_ok x0 (slabOf x1) 193 (by decide) 19 3 (by decide) (by decide) (by decide +kernel) (by decide +kernel) _ x
  · exact fun x => row_ok x0 (slabOf x1) 192 (by decide) 19 2 (by decide) (by decide) (by decide +kernel) (by decide +kernel) _ x
  · exact fun x => row_ok x0 (slabOf x1) 191 (by decide) 19 1 (by decide) (by decide) (by decide +kernel) (by decide +kernel) _ x
  · exact fun x => row_ok x0 (slabOf x1) 190 (by decide) 19 0 (by decide) (by decide) (by decide +kernel) (by decide +kernel) _ x
  · exact fun x => row_ok x0 (slabOf x1) 189 (by decide) 18 18 (by decide) (by decide) (by decide +kernel) (by decide +kernel) _ x
  · exact fun x => row_ok x0 (slabOf x1) 188 (by decide) 18 17 (by decide) (by decide) (by decide +kernel) (by decide +kernel) _ x
  · exact fun x => row_ok x0 (slabOf x1) 187 (by decide) 18 16 (by decide) (by decide) (by decide +kernel) (by decide +kernel) _ x
  · exact fun x => row_ok x0 (slabOf x1) 186 (by decide) 18 15 (by decide) (by decide) (by decide +kernel) (by decide +kernel) _ x
  · exact fun x => row_ok x0 (slabOf x1) 185 (by decide) 18 14 (by decide) (by decide) (by decide +kernel) (by decide +kernel) _ x
  · exact fun x => row_ok x0 (slabOf x1) 184 (by decide) 18 13 (by decide) (by decide) (by decide +kernel) (by decide +kernel) _ x
  · exact fun x => row_ok x0 (slabOf x1) 183 (by decide) 18 12 (by decide) (by decide) (by decide +kernel) (by decide +kernel) _ x
  · exact fun x => row_ok x0 (slabOf x1) 182 (by decide) 18 11 (by decide) (by decide) (by decide +kernel) (by decide +kernel) _ x
  · exact fun x => row_ok x0 (slabOf x1) 181 (by decide) 18 10 (by decide) (by decide) (by decide +kernel) (by decide +kernel) _ x
  · exact fun x => row_ok x0 (slabOf x1) 180 (by decide) 18 9 (by decide) (by decide) (by decide +kernel) (by decide +kernel) _ x
  · exact fun x => row_ok x0 (slabOf x1) 179 (by decide) 18 8 (by decide) (by decide) (by decide +kernel) (by decide +kernel) _ x
  · exact fun x => row_ok x0 (slabOf x1) 178 (by decide) 18 7 (by decide) (by decide) (by decide +kernel) (by decide +kernel) _ x
  · exact fun x => row_ok x0 (slabOf x1) 177 (by decide) 18 6 (by decide) (by decide) (by decide +kernel) (by decide +kernel) _ x
  · exact fun x => row_ok x0 (slabOf x1) 176 (by decide) 18 5 (by decide) (by decide) (by decide +kernel) (by decide +kernel) _ x
  · exact fun x => row_ok x0 (slabOf x1) 175 (by decide) 18 4 (by decide) (by decide) (by decide +kernel) (by decide +kernel) _ x
  · exact fun x => row_ok x0 (slabOf x1) 174 (by decide) 18 3 (by decide) (by decide) (by decide +kernel) (by decide +kernel) _ x
  · exact fun x => row_ok x0 (slabOf x1) 173 (by decide) 18 2 (by decide) (by decide) (by decide +kernel) (by decide +kernel) _ x
  · exact fun x => row_ok x0 (slabOf x1) 172 (by decide) 18 1 (by decide) (by decide) (by decide +kernel) (by decide +kernel) _ x
  · exact fun x => row_ok x0 (slabOf x1) 171 (by decide) 18 0 (by decide) (by decide) (by decide +kernel) (by decide +kernel) _ x
  · exact fun x => row_ok x0 (slabOf x1) 170 (by decide) 17 17 (by decide) (by decide) (by decide +kernel) (by decide +kernel) _ x
  · exact fun x => row_ok x0 (slabOf x1) 169 (by decide) 17 16 (by decide) (by decide) (by decide +kernel) (by decide +kernel) _ x
  · exact fun x => row_ok x0 (slabOf x1) 168 (by decide) 17 15 (by decide) (by decide) (by decide +kernel) (by decide +kernel) _ x
  · exact fun x => row_ok x0 (slabOf x1) 167 (by decide) 17 14 (by decide) (by decide) (by decide +kernel) (by decide +kernel) _ x
  · exact fun x => row_ok x0 (slabOf x1) 166 (by decide) 17 13 (by decide) (by decide) (by decide +kernel) (by decide +kernel) _ x
  · exact fun x => row_ok x0 (slabOf x1) 165 (by decide) 17 12 (by decide) (by decide) (by decide +kernel) (by decide +kernel) _ x
  · exact fun x => row_ok x0 (slabOf x1) 164 (by decide) 17 11 (by decide) (by decide) (by decide +kernel) (by decide +kernel) _ x
  · exact fun x => row_ok x0 (slabOf x1) 163 (by decide) 17 10 (by decide) (by decide) (by decide +kernel) (by decide +kernel) _ x
  · exact fun x => row_ok x0 (slabOf x1) 162 (by decide) 17 9 (by decide) (by decide) (by decide +kernel) (by decide +kernel) _ x
  · exact fun x => row_ok x0 (slabOf x1) 161 (by decide) 17 8 (by decide) (by decide) (by decide +kernel) (by decide +kernel) _ x
  · exact fun x => row_ok x0 (slabOf x1) 160 (by decide) 17 7 (by decide) (by decide) (by decide +kernel) (by decide +kernel) _ x
  · exact fun x => row_ok x0 (slabOf x1) 159 (by decide) 17 6 (by decide) (by decide) (by decide +kernel) (by decide +kernel) _ x
  · exact fun x => row_ok x0 (slabOf x1) 158 (by decide) 17 5 (by decide) (by decide) (by decide +kernel) (by decide +kernel) _ x
  · exact fun x => row_ok x0 (slabOf x1) 157 (by decide) 17 4 (by decide) (by decide) (by decide +kernel) (by decide +kernel) _ x
  · exact fun x => row_ok x0 (slabOf x1) 156 (by decide) 17 3 (by decide) (by decide) (by decide +kernel) (by decide +kernel) _ x
  · exact fun x => row_ok x0 (slabOf x1) 155 (by decide) 17 2 (by decide) (by decide) (by decide +kernel) (by decide +kernel) _ x
  · exact fun x => row_ok x0 (slabOf x1) 154 (by decide) 17 1 (by decide) (by decide) (by decide +kernel) (by decide +kernel) _ x
  · exact fun x => row_ok x0 (slabOf x1) 153 (by decide) 17 0 (by decide) (by decide) (by decide +kernel) (by decide +kernel) _ x
  · exact fun x => row_ok x0 (slabOf x1) 152 (by decide) 16 16 (by decide) (by decide) (by decide +kernel) (by decide +kernel) _ x
  · exact fun x => row_ok x0 (slabOf x1) 151 (by decide) 16 15 (by decide) (by decide) (by decide +kernel) (by decide +kernel) _ x
  · exact fun x => row_ok x0 (slabOf x1) 150 (by decide) 16 14 (by decide) (by decide) (by decide +kernel) (by decide +kernel) _ x
  · exact fun x => row_ok x0 (slabOf x1) 149 (by decide) 16 13 (by decide) (by decide) (by decide +kernel) (by decide +kernel) _ x
  · exact fun x => row_ok x0 (slabOf x1) 148 (by decide) 16 12 (by decide) (by decide) (by decide +kernel) (by decide +kernel) _ x
  · exact fun x => row_ok x0 (slabOf x1) 147 (by decide) 16 11 (by decide) (by decide) (by decide +kernel) (by decide +kernel) _ x
  · exact fun x => row_ok x0 (slabOf x1) 146 (by decide) 16 10 (by decide) (by decide) (by decide +kernel) (by decide +kernel) _ x
  · exact fun x => row_ok x0 (slabOf x1) 145 (by decide) 16 9 (by decide) (by decide) (by decide +kernel) (by decide +kernel) _ x
  · exact fun x => row_ok x0 (slabOf x1) 144 (by decide) 16 8 (by decide) (by decide) (by decide +kernel) (by decide +kernel) _ x
  · exact fun x => row_ok x0 (slabOf x1) 143 (by decide) 16 7 (by decide) (by decide) (by decide +kernel) (by decide +kernel) _ x
  · exact fun x => row_ok x0 (slabOf x1) 142 (by decide) 16 6 (by decide) (by decide) (by decide +kernel) (by decide +kernel) _ x
  · exact fun x => row_ok x0 (slabOf x1) 141 (by decide) 16 5 (by decide) (by decide) (by decide +kernel) (by decide +kernel) _ x
  · exact fun x => row_ok x0 (slabOf x1) 140 (by decide) 16 4 (by decide) (by decide) (by decide +kernel) (by decide +kernel) _ x
  · exact fun x => row_ok x0 (slabOf x1) 139 (by decide) 16 3 (by decide) (by decide) (by decide +kernel) (by decide +kernel) _ x
  · exact fun x => row_ok x0 (slabOf x1) 138 (by decide) 16 2 (by decide) (by decide) (by decide +kernel) (by decide +kernel) _ x
  · exact fun x => row_ok x0 (slabOf x1) 137 (by decide) 16 1 (by decide) (by decide) (by decide +kernel) (by decide +kernel) _ x
  · exact fun x => row_ok x0 (slabOf x1) 136 (by decide) 16 0 (by decide) (by decide) (by decide +kernel) (by decide +kernel) _ x
  · exact fun x => row_ok x0 (slabOf x1) 135 (by decide) 15 15 (by decide) (by decide) (by decide +kernel) (by decide +kernel) _ x
  · exact fun x => row_ok x0 (slabOf x1) 134 (by decide) 15 14 (by decide) (by decide) (by decide +kernel) (by decide +kernel) _ x
  · exact fun x => row_ok x0 (slabOf x1) 133 (by decide) 15 13 (by decide) (by decide) (by decide +kernel) (by decide +kernel) _ x
  · exact fun x => row_ok x0 (slabOf x1) 132 (by decide) 15 12 (by decide) (by decide) (by decide +kernel) (by decide +kernel) _ x
  · exact fun x => row_ok x0 (slabOf x1) 131 (by decide) 15 11 (by decide) (by decide) (by decide +kernel) (by decide +kernel) _ x
  · exact fun x => row_ok x0 (slabOf x1) 130 (by decide) 15 10 (by decide) (by decide) (by decide +kernel) (by decide +kernel) _ x
  · exact fun x => row_ok x0 (slabOf x1) 129 (by decide) 15 9 (by decide) (by decide) (by decide +kernel) (by decide +kernel) _ x
  · exact fun x => row_ok x0 (slabOf x1) 128 (by decide) 15 8 (by decide) (by decide) (by decide +kernel) (by decide +kernel) _ x
  · exact fun x => row_ok x0 (slabOf x1) 127 (by decide) 15 7 (by decide) (by decide) (by decide +kernel) (by decide +kernel) _ x
  · exact fun x => row_ok x0 (slabOf x1) 126 (by decide) 15 6 (by decide) (by decide) (by decide +kernel) (by decide +kernel) _ x
  · exact fun x => row_ok x0 (slabOf x1) 125 (by decide) 15 5 (by decide) (by decide) (by decide +kernel) (by decide +kernel) _ x
  · exact fun x => row_ok x0 (slabOf x1) 124 (by decide) 15 4 (by decide) (by decide) (by decide +kernel) (by decide +kernel) _ x
  · exact fun x => row_ok x0 (slabOf x1) 123 (by decide) 15 3 (by decide) (by decide) (by decide +kernel) (by decide +kernel) _ x
  · exact fun x => row_ok x0 (slabOf x1) 122 (by decide) 15 2 (by decide) (by decide) (by decide +kernel) (by decide +kernel) _ x
  · exact fun x => row_ok x0 (slabOf x1) 121 (by decide) 15 1 (by decide) (by decide) (by decide +kernel) (by decide +kernel) _ x
  · exact fun x => row_ok x0 (slabOf x1) 120 (by decide) 15 0 (by decide) (by decide) (by decide +kernel) (by decide +kernel) _ x
  · exact fun x => row_ok x0 (slabOf x1) 119 (by decide) 14 14 (by decide) (by decide) (by decide +kernel) (by decide +kernel) _ x
  · exact fun x => row_ok x0 (slabOf x1) 118 (by decide) 14 13 (by decide) (by decide) (by decide +kernel) (by decide +kernel) _ x
  · exact fun x => row_ok x0 (slabOf x1) 117 (by decide) 14 12 (by decide) (by decide) (by decide +kernel) (by decide +kernel) _ x
  · exact fun x => row_ok x0 (slabOf x1) 116 (by decide) 14 11 (by decide) (by decide) (by decide +kernel) (by decide +kernel) _ x
  · exact fun x => row_ok x0 (slabOf x1) 115 (by decide) 14 10 (by decide) (by decide) (by decide +kernel) (by decide +kernel) _ x
  · exact fun x => row_ok x0 (slabOf x1) 114 (by decide) 14 9 (by decide) (by decide) (by decide +kernel) (by decide +kernel) _ x
  · exact fun x => row_ok x0 (slabOf x1) 113 (by decide) 14 8 (by decide) (by decide) (by decide +kernel) (by decide +kernel) _ x
  · exact fun x => row_ok x0 (slabOf x1) 112 (by decide) 14 7 (by decide) (by decide) (by decide +kernel) (by decide +kernel) _ x
  · exact fun x => row_ok x0 (slabOf x1) 111 (by decide) 14 6 (by decide) (by decide) (by decide +kernel) (by decide +kernel) _ x
  · exact fun x => row_ok x0 (slabOf x1) 110 (by decide) 14 5 (by decide) (by decide) (by decide +kernel) (by decide +kernel) _ x
  · exact fun x => row_ok x0 (slabOf x1) 109 (by decide) 14 4 (by decide) (by decide) (by decide +kernel) (by decide +kernel) _ x
  · exact fun x => row_ok x0 (slabOf x1) 108 (by decide) 14 3 (by decide) (by decide) (by decide +kernel) (by decide +kernel) _ x
  · exact fun x => row_ok x0 (slabOf x1) 107 (by decide) 14 2 (by decide) (by decide) (by decide +kernel) (by decide +kernel) _ x
  · exact fun x => row_ok x0 (slabOf x1) 106 (by decide) 14 1 (by decide) (by decide) (by decide +kernel) (by decide +kernel) _ x
  · exact fun x => row_ok x0 (slabOf x1) 105 (by decide) 14 0 (by decide) (by decide) (by decide +kernel) (by decide +kernel) _ x
  · exact fun x => row_ok x0 (slabOf x1) 104 (by decide) 13 13 (by decide) (by decide) (by decide +kernel) (by decide +kernel) _ x
  · exact fun x => row_ok x0 (slabOf x1) 103 (by decide) 13 12 (by decide) (by decide) (by decide +kernel) (by decide +kernel) _ x
  · exact fun x => row_ok x0 (slabOf x1) 102 (by decide) 13 11 (by decide) (by decide) (by decide +kernel) (by decide +kernel) _ x
  · exact fun x => row_ok x0 (slabOf x1) 101 (by decide) 13 10 (by decide) (by decide) (by decide +kernel) (by decide +kernel) _ x
  · exact fun x => row_ok x0 (slabOf x1) 100 (by decide) 13 9 (by decide) (by decide) (by decide +kernel) (by decide +kernel) _ x
  · exact fun x => row_ok x0 (slabOf x1) 99 (by decide) 13 8 (by decide) (by decide) (by decide +kernel) (by decide +kernel) _ x
  · exact fun x => row_ok x0 (slabOf x1) 98 (by decide) 13 7 (by decide) (by decide) (by decide +kernel) (by decide +kernel) _ x
  · exact fun x => row_ok x0 (slabOf x1) 97 (by decide) 13 6 (by decide) (by decide) (by decide +kernel) (by decide +kernel) _ x
  · exact fun x => row_ok x0 (slabOf x1) 96 (by decide) 13 5 (by decide) (by decide) (by decide +kernel) (by decide +kernel) _ x
  · exact fun x => row_ok x0 (slabOf x1) 95 (by decide) 13 4 (by decide) (by decide) (by decide +kernel) (by decide +kernel) _ x
  · exact fun x => row_ok x0 (slabOf x1) 94 (by decide) 13 3 (by decide) (by decide) (by decide +kernel) (by decide +kernel) _ x
  · exact fun x => row_ok x0 (slabOf x1) 93 (by decide) 13 2 (by decide) (by decide) (by decide +kernel) (by decide +kernel) _ x
  · exact fun x => row_ok x0 (slabOf x1) 92 (by decide) 13 1 (by decide) (by decide) (by decide +kernel) (by decide +kernel) _ x
  · exact fun x => row_ok x0 (slabOf x1) 91 (by decide) 13 0 (by decide) (by decide) (by decide +kernel) (by decide +kernel) _ x
  · exact fun x => row_ok x0 (slabOf x1) 90 (by decide) 12 12 (by decide) (by decide) (by decide +kernel) (by decide +kernel) _ x
  · exact fun x => row_ok x0 (slabOf x1) 89 (by decide) 12 11 (by decide) (by decide) (by decide +kernel) (by decide +kernel) _ x
  · exact fun x => row_ok x0 (slabOf x1) 88 (by decide) 12 10 (by decide) (by decide) (by decide +kernel) (by decide +kernel) _ x
  · exact fun x => row_ok x0 (slabOf x1) 87 (by decide) 12 9 (by decide) (by decide) (by decide +kernel) (by decide +kernel) _ x
  · exact fun x => row_ok x0 (slabOf x1) 86 (by decide) 12 8 (by decide) (by decide) (by decide +kernel) (by decide +kernel) _ x
  · exact fun x => row_ok x0 (slabOf x1) 85 (by decide) 12 7 (by decide) (by decide) (by decide +kernel) (by decide +kernel) _ x
  · exact fun x => row_ok x0 (slabOf x1) 84 (by decide) 12 6 (by decide) (by decide) (by decide +kernel) (by decide +kernel) _ x
  · exact fun x => row_ok x0 (slabOf x1) 83 (by decide) 12 5 (by decide) (by decide) (by decide +kernel) (by decide +kernel) _ x
  · exact fun x => row_ok x0 (slabOf x1) 82 (by decide) 12 4 (by decide) (by decide) (by decide +kernel) (by decide +kernel) _ x
  · exact fun x => row_ok x0 (slabOf x1) 81 (by decide) 12 3 (by decide) (by decide) (by decide +kernel) (by decide +kernel) _ x
  · exact fun x => row_ok x0 (slabOf x1) 80 (by decide) 12 2 (by decide) (by decide) (by decide +kernel) (by decide +kernel) _ x
  · exact fun x => row_ok x0 (slabOf x1) 79 (by decide) 12 1 (by decide) (by decide) (by decide +kernel) (by decide +kernel) _ x
  · exact fun x => row_ok x0 (slabOf x1) 78 (by decide) 12 0 (by decide) (by decide) (by decide +kernel) (by decide +kernel) _ x
  · exact fun x => row_ok x0 (slabOf x1) 77 (by decide) 11 11 (by decide) (by decide) (by decide +kernel) (by decide +kernel) _ x
  · exact fun x => row_ok x0 (slabOf x1) 76 (by decide) 11 10 (by decide) (by decide) (by decide +kernel) (by decide +kernel) _ x
  · exact fun x => row_ok x0 (slabOf x1) 75 (by decide) 11 9 (by decide) (by decide) (by decide +kernel) (by decide +kernel) _ x
  · exact fun x => row_ok x0 (slabOf x1) 74 (by decide) 11 8 (by decide) (by decide) (by decide +kernel) (by decide +kernel) _ x
  · exact fun x => row_ok x0 (slabOf x1) 73 (by decide) 11 7 (by decide) (by decide) (by decide +kernel) (by decide +kernel) _ x
  · exact fun x => row_ok x0 (slabOf x1) 72 (by decide) 11 6 (by decide) (by decide) (by decide +kernel) (by decide +kernel) _ x
  · exact fun x => row_ok x0 (slabOf x1) 71 (by decide) 11 5 (by decide) (by decide) (by decide +kernel) (by decide +kernel) _ x
  · exact fun x => row_ok x0 (slabOf x1) 70 (by decide) 11 4 (by decide) (by decide) (by decide +kernel) (by decide +kernel) _ x
  · exact fun x => row_ok x0 (slabOf x1) 69 (by decide) 11 3 (by decide) (by decide) (by decide +kernel) (by decide +kernel) _ x
  · exact fun x => row_ok x0 (slabOf x1) 68 (by decide) 11 2 (by decide) (by decide) (by decide +kernel) (by decide +kernel) _ x
  · exact fun x => row_ok x0 (slabOf x1) 67 (by decide) 11 1 (by decide) (by decide) (by decide +kernel) (by decide +kernel) _ x
  · exact fun x => row_ok x0 (slabOf x1) 66 (by decide) 11 0 (by decide) (by decide) (by decide +kernel) (by decide +kernel) _ x
  · exact fun x => row_ok x0 (slabOf x1) 65 (by decide) 10 10 (by decide) (by decide) (by decide +kernel) (by decide +kernel) _ x
  · exact fun x => row_ok x0 (slabOf x1) 64 (by decide) 10 9 (by decide) (by decide) (by decide +kernel) (by decide +kernel) _ x
  · exact fun x => row_ok x0 (slabOf x1) 63 (by decide) 10 8 (by decide) (by decide) (by decide +kernel) (by decide +kernel) _ x
  · exact fun x => row_ok x0 (slabOf x1) 62 (by decide) 10 7 (by decide) (by decide) (by decide +kernel) (by decide +kernel) _ x
  · exact fun x => row_ok x0 (slabOf x1) 61 (by decide) 10 6 (by decide) (by decide) (by decide +kernel) (by decide +kernel) _ x
  · exact fun x => row_ok x0 (slabOf x1) 60 (by decide) 10 5 (by decide) (by decide) (by decide +kernel) (by decide +kernel) _ x
  · exact fun x => row_ok x0 (slabOf x1) 59 (by decide) 10 4 (by decide) (by decide) (by decide +kernel) (by decide +kernel) _ x
  · exact fun x => row_ok x0 (slabOf x1) 58 (by decide) 10 3 (by decide) (by decide) (by decide +kernel) (by decide +kernel) _ x
  · exact fun x => row_ok x0 (slabOf x1) 57 (by decide) 10 2 (by decide) (by decide) (by decide +kernel) (by decide +kernel) _ x
  · exact fun x => row_ok x0 (slabOf x1) 56 (by decide) 10 1 (by decide) (by decide) (by decide +kernel) (by decide +kernel) _ x
  · exact fun x => row_ok x0 (slabOf x1) 55 (by decide) 10 0 (by decide) (by decide) (by decide +kernel) (by decide +kernel) _ x
  · exact fun x => row_ok x0 (slabOf x1) 54 (by decide) 9 9 (by decide) (by decide) (by decide +kernel) (by decide +kernel) _ x
  · exact fun x => row_ok x0 (slabOf x1) 53 (by decide) 9 8 (by decide) (by decide) (by decide +kernel) (by decide +kernel) _ x
  · exact fun x => row_ok x0 (slabOf x1) 52 (by decide) 9 7 (by decide) (by decide) (by decide +kernel) (by decide +kernel) _ x
  · exact fun x => row_ok x0 (slabOf x1) 51 (by decide) 9 6 (by decide) (by decide) (by decide +kernel) (by decide +kernel) _ x
  · exact fun x => row_ok x0 (slabOf x1) 50 (by decide) 9 5 (by decide) (by decide) (by decide +kernel) (by decide +kernel) _ x
  · exact fun x => row_ok x0 (slabOf x1) 49 (by decide) 9 4 (by decide) (by decide) (by decide +kernel) (by decide +kernel) _ x
  · exact fun x => row_ok x0 (slabOf x1) 48 (by decide) 9 3 (by decide) (by decide) (by decide +kernel) (by decide +kernel) _ x
  · exact fun x => row_ok x0 (slabOf x1) 47 (by decide) 9 2 (by decide) (by decide) (by decide +kernel) (by decide +kernel) _ x
  · exact fun x => row_ok x0 (slabOf x1) 46 (by decide) 9 1 (by decide) (by decide) (by decide +kernel) (by decide +kernel) _ x
  · exact fun x => row_ok x0 (slabOf x1) 45 (by decide) 9 0 (by decide) (by decide) (by decide +kernel) (by decide +kernel) _ x
  · exact fun x => row_ok x0 (slabOf x1) 44 (by decide) 8 8 (by decide) (by decide) (by decide +kernel) (by decide +kernel) _ x
  · exact fun x => row_ok x0 (slabOf x1) 43 (by decide) 8 7 (by decide) (by decide) (by decide +kernel) (by decide +kernel) _ x
  · exact fun x => row_ok x0 (slabOf x1) 42 (by decide) 8 6 (by decide) (by decide) (by decide +kernel) (by decide +kernel) _ x
  · exact fun x => row_ok x0 (slabOf x1) 41 (by decide) 8 5 (by decide) (by decide) (by decide +kernel) (by decide +kernel) _ x
  · exact fun x => row_ok x0 (slabOf x1) 40 (by decide) 8 4 (by decide) (by decide) (by decide +kernel) (by decide +kernel) _ x
  · exact fun x => row_ok x0 (slabOf x1) 39 (by decide) 8 3 (by decide) (by decide) (by decide +kernel) (by decide +kernel) _ x
  · exact fun x => row_ok x0 (slabOf x1) 38 (by decide) 8 2 (by decide) (by decide) (by decide +kernel) (by decide +kernel) _ x
  · exact fun x => row_ok x0 (slabOf x1) 37 (by decide) 8 1 (by decide) (by decide) (by decide +kernel) (by decide +kernel) _ x
  · exact fun x => row_ok x0 (slabOf x1) 36 (by decide) 8 0 (by decide) (by decide) (by decide +kernel) (by decide +kernel) _ x
  · exact fun x => row_ok x0 (slabOf x1) 35 (by decide) 7 7 (by decide) (by decide) (by decide +kernel) (by decide +kernel) _ x
  · exact fun x => row_ok x0 (slabOf x1) 34 (by decide) 7 6 (by decide) (by decide) (by decide +kernel) (by decide +kernel) _ x
  · exact fun x => row_ok x0 (slabOf x1) 33 (by decide) 7 5 (by decide) (by decide) (by decide +kernel) (by decide +kernel) _ x
  · exact fun x => row_ok x0 (slabOf x1) 32 (by decide) 7 4 (by decide) (by decide) (by decide +kernel) (by decide +kernel) _ x
  · exact fun x => row_ok x0 (slabOf x1) 31 (by decide) 7 3 (by decide) (by decide) (by decide +kernel) (by decide +kernel) _ x
  · exact fun x => row_ok x0 (slabOf x1) 30 (by decide) 7 2 (by decide) (by decide) (by decide +kernel) (by decide +kernel) _ x
  · exact fun x => row_ok x0 (slabOf x1) 29 (by decide) 7 1 (by decide) (by decide) (by decide +kernel) (by decide +kernel) _ x
  · exact fun x => row_ok x0 (slabOf x1) 28 (by decide) 7 0 (by decide) (by decide) (by decide +kernel) (by decide +kernel) _ x
  · exact fun x => row_ok x0 (slabOf x1) 27 (by decide) 6 6 (by decide) (by decide) (by decide +kernel) (by decide +kernel) _ x
  · exact fun x => row_ok x0 (slabOf x1) 26 (by decide) 6 5 (by decide) (by decide) (by decide +kernel) (by decide +kernel) _ x
  · exact fun x => row_ok x0 (slabOf x1) 25 (by decide) 6 4 (by decide) (by decide) (by decide +kernel) (by decide +kernel) _ x
  · exact fun x => row_ok x0 (slabOf x1) 24 (by decide) 6 3 (by decide) (by decide) (by decide +kernel) (by decide +kernel) _ x
  · exact fun x => row_ok x0 (slabOf x1) 23 (by decide) 6 2 (by decide) (by decide) (by decide +kernel) (by decide +kernel) _ x
  · exact fun x => row_ok x0 (slabOf x1) 22 (by decide) 6 1 (by decide) (by decide) (by decide +kernel) (by decide +kernel) _ x
  · exact fun x => row_ok x0 (slabOf x1) 21 (by decide) 6 0 (by decide) (by decide) (by decide +kernel) (by decide +kernel) _ x
  · exact fun x => row_ok x0 (slabOf x1) 20 (by decide) 5 5 (by decide) (by decide) (by decide +kernel) (by decide +kernel) _ x
  · exact fun x => row_ok x0 (slabOf x1) 19 (by decide) 5 4 (by decide) (by decide) (by decide +kernel) (by decide +kernel) _ x
  · exact fun x => row_ok x0 (slabOf x1) 18 (by decide) 5 3 (by decide) (by decide) (by decide +kernel) (by decide +kernel) _ x
  · exact fun x => row_ok x0 (slabOf x1) 17 (by decide) 5 2 (by decide) (by decide) (by decide +kernel) (by decide +kernel) _ x
  · exact fun x => row_ok x0 (slabOf x1) 16 (by decide) 5 1 (by decide) (by decide) (by decide +kernel) (by decide +kernel) _ x
  · exact fun x => row_ok x0 (slabOf x1) 15 (by decide) 5 0 (by decide) (by decide) (by decide +kernel) (by decide +kernel) _ x
  · exact fun x => row_ok x0 (slabOf x1) 14 (by decide) 4 4 (by decide) (by decide) (by decide +kernel) (by decide +kernel) _ x
  · exact fun x => row_ok x0 (slabOf x1) 13 (by decide) 4 3 (by decide) (by decide) (by decide +kernel) (by decide +kernel) _ x
  · exact fun x => row_ok x0 (slabOf x1) 12 (by decide) 4 2 (by decide) (by decide) (by decide +kernel) (by decide +kernel) _ x
  · exact fun x => row_ok x0 (slabOf x1) 11 (by decide) 4 1 (by decide) (by decide) (by decide +kernel) (by decide +kernel) _ x
  · exact fun x => row_ok x0 (slabOf x1) 10 (by decide) 4 0 (by decide) (by decide) (by decide +kernel) (by decide +kernel) _ x
  · exact fun x => row_ok x0 (slabOf x1) 9 (by decide) 3 3 (by decide) (by decide) (by decide +kernel) (by decide +kernel) _ x
  · exact fun x => row_ok x0 (slabOf x1) 8 (by decide) 3 2 (by decide) (by decide) (by decide +kernel) (by decide +kernel) _ x
  · exact fun x => row_ok x0 (slabOf x1) 7 (by decide) 3 1 (by decide) (by decide) (by decide +kernel) (by decide +kernel) _ x
  · exact fun x => row_ok x0 (slabOf x1) 6 (by decide) 3 0 (by decide) (by decide) (by decide +kernel) (by decide +kernel) _ x
  · exact fun x => row_ok x0 (slabOf x1) 5 (by decide) 2 2 (by decide) (by decide) (by decide +kernel) (by decide +kernel) _ x
  · exact fun x => row_ok x0 (slabOf x1) 4 (by decide) 2 1 (by decide) (by decide) (by decide +kernel) (by decide +kernel) _ x
  · exact fun x => row_ok x0 (slabOf x1) 3 (by decide) 2 0 (by decide) (by decide) (by decide +kernel) (by decide +kernel) _ x
  · exact fun x => row_ok x0 (slabOf x1) 2 (by decide) 1 1 (by decide) (by decide) (by decide +kernel) (by decide +kernel) _ x
  · exact fun x => row_ok x0 (slabOf x1) 1 (by decide) 1 0 (by decide) (by decide) (by decide +kernel) (by decide +kernel) _ x
  · exact fun x => row_ok x0 (slabOf x1) 0 (by decide) 0 0 (by decide) (by decide) (by decide +kernel) (by decide +kernel) _ x
  · intro pc h; cases h

end Cert.KernelIdeal.Tile

end
-- ==== Proof.TileValue.lean ====
/-
  What the kernel body leaves in its output block, as one function of the two staged input blocks.

  The body fills the [378, 512] scratch row by row (one row per pair of the lower triangle), reads the whole
  scratch back, transposes it to [512, 378] and stores, into the [512, 506] output block, the dense block's 128
  columns followed by those 378.  The 378 row stores tile the scratch, and each is a row of ONE function of the
  staged blocks (`scratchFn`), so the read-back is that function; the output block is therefore the pairwise
  interaction of the tile's 27 feature rows — the same function `PairSpec.interaction` that states the whole result,
  at 512 batch rows.
-/
import proofs.«168496_j1082331758806_2_alg».proof.Proof.Gen.KernelIdeal.Frame
import proofs.«168496_j1082331758806_2_alg».proof.Proof.TileRow
import proofs.«168496_j1082331758806_2_alg».proof.Proof.TilePairs
import Idealize.ShloMosaic.Lib.Pipeline.Value
import Idealize.ShloMosaic.Lib.ValueLayout
import Idealize.ShloMosaic.Lib.Tactic

set_option maxRecDepth 16384

noncomputable section

open scoped BigOperators

namespace Cert.KernelIdeal.Tile

open Cert.KernelIdeal Cert.KernelIdeal.Gen Cert.PairSpec
open Idealize.ShloMosaic Idealize.ShloMosaic.TcCoe Idealize.SL.Sem Idealize.ShloMosaic.ValueIdx

/-- The 378 row stores tile the scratch, so every index of it is under one of them. -/
theorem scratch_cover (c : Dev nD) (arg1 : Memref sig .tc .vmem S512x128 .f32) (harg1 : arg1.IsWhole)
    (arg2 : Memref sig .tc .vmem S26x512x128 .f32) (harg2 : arg2.IsWhole)
    (x0 : Vec Ideal S512x128 .f32) (x1 : Vec Ideal S26x512x128 .f32) (y : S378x512.Idx) :
    ∃ pc ∈ kernelRun0_A.sl.HS0_378 c arg1 harg1 arg2 harg2 x0 x1, y ∈ pc.1.set :=
  View.cover_of_tiledL (kernelRun0_A.sl.HS0_378 c arg1 harg1 arg2 harg2 x0 x1) S1x512.size (by sl_kernel_rfl) y

/-- The body's read-back of the whole scratch, after its 378 stores: `scratchFn` of the staged blocks. -/
theorem scratch_read (c : Dev nD) (arg1 : Memref sig .tc .vmem S512x128 .f32) (harg1 : arg1.IsWhole)
    (arg2 : Memref sig .tc .vmem S26x512x128 .f32) (harg2 : arg2.IsWhole) (arg4 : Memref sig .tc .vmem S378x512 .f32)
    (x0 : Vec Ideal S512x128 .f32) (x1 : Vec Ideal S26x512x128 .f32) :
    kernelRun0_A.sl.v2726 c arg1 harg1 arg2 harg2 arg4 x0 x1 = scratchFn x0 (slabOf x1) := by
  show arg4.view.readCov (kernelRun0_A.sl.HS0_378 c arg1 harg1 arg2 harg2 x0 x1)
    (Rect.unit ![0, 0] S378x512.size inb_S378x512_S378x512_0_0).toLoadRect = _
  rw [View.readCov_eq_canon_ld _ _ _ (scratch_cover c arg1 harg1 arg2 harg2 x0 x1), View.ld_unit_zero (S := S378x512) zero_offsets]
  funext y
  exact View.canon_apply_of_pieces (scratchFn x0 (slabOf x1)) _ (scratch_pieces c arg1 harg1 arg2 harg2 x0 x1) y
    (scratch_cover c arg1 harg1 arg2 harg2 x0 x1 y)

/-- The body's load of the whole dense block reads the block. -/
theorem dense_read (c : Dev nD) (arg1 : Memref sig .tc .vmem S512x128 .f32) (harg1 : arg1.IsWhole)
    (x0 : Vec Ideal S512x128 .f32) : kernelRun0_A.sl.r c arg1 harg1 x0 = x0 := by
  show View.readAt (Elt Ideal) arg1.view (Rect.unit ![0, 0] S512x128.size inb_S512x128_S512x128_0_0).toLoadRect (harg1.unread x0) = x0
  rw [View.readAt_eq_ld, harg1.read_unread, View.ld_unit_zero (S := S512x128) zero_offsets]

/-- Feature `n` of the tile at (row `r`, entry `d`): the dense block's entry, or the sparse block's slab `n - 1`. -/
theorem featM_apply (x0 : Vec Ideal S512x128 .f32) (x1 : Vec Ideal S26x512x128 .f32) (n : Fin 27) (r : Fin 512) (d : Fin 128) :
    featM x0 (slabOf x1) n (ix2 r d) = rows x0 x1 n r d := by
  unfold featM rows
  by_cases h : n.val = 0
  · rw [dif_pos h, dif_pos h]
  · rw [dif_neg h, dif_neg h, shapeCast_1ab_ab_apply]
    unfold slabOf
    show x1 ((Rect.unit (s := S26x512x128) ![n.val - 1, 0, 0] S1x512x128.size (slab_inb ⟨n.val - 1, by omega⟩)).idx (ix3 (0 : Fin 1) r d)) = _
    refine congrArg x1 (funext fun a => Fin.ext ?_)
    match a with
    | ⟨0, _⟩ => show n.val - 1 + 1 * 0 = n.val - 1; omega
    | ⟨1, _⟩ => show 0 + 1 * r.val = r.val; omega
    | ⟨2, _⟩ => show 0 + 1 * d.val = d.val; omega

/-- The stored value — the dense block with the transposed scratch behind — is the interaction of the tile's rows. -/
theorem stored_eq (x0 : Vec Ideal S512x128 .f32) (x1 : Vec Ideal S26x512x128 .f32) :
    k0_pay1 x0 (scratchFn x0 (slabOf x1)) = interaction (rows x0 x1) := by
  funext j
  obtain ⟨r, q, rfl⟩ : ∃ (r : Fin 512) (q : Fin 506), j = ix2 r q := ⟨j 0, j 1, eq_ix2 j⟩
  show concatenate S512x506 1 [⟨S512x128, x0⟩, ⟨S512x378, transpose S512x378 [1, 0] (scratchFn x0 (slabOf x1))
    transposes_S378x512_p1_0_S512x378⟩] concatenates_S512x128_S512x378_S512x506_d1 (ix2 r q) = _
  by_cases hq : q.val < 128
  · rw [interaction_dense _ r q hq]
    rw [concatenate_pair_apply_left 1 _ _ concatenates_S512x128_S512x378_S512x506_d1 (ix2 r q) rfl
      (ix2 r (⟨q.val, hq⟩ : Fin 128)) (fun c => match c with | ⟨0, _⟩ => rfl | ⟨1, _⟩ => rfl)]
    rfl
  · have hp : q.val - 128 < 378 := by have := q.isLt; omega
    rw [interaction_pair _ r q ⟨q.val - 128, hp⟩ (show q.val - 128 + 128 = q.val by omega)]
    rw [concatenate_pair_apply_right 1 _ _ concatenates_S512x128_S512x378_S512x506_d1 (ix2 r q) rfl rfl
      (ix2 r (⟨q.val - 128, hp⟩ : Fin 378))
      (fun c hc => match c, hc with | ⟨0, _⟩, _ => rfl | ⟨1, _⟩, hc => absurd rfl hc)
      (show q.val - 128 + 128 = q.val by omega)]
    rw [transpose_ix2_apply, scratchFn_apply x0 (slabOf x1) _ ⟨q.val - 128, hp⟩ r rfl rfl]
    unfold dot
    refine Finset.sum_congr rfl fun d _ => ?_
    dsimp only
    rw [featM_apply, featM_apply]

/-- WHAT THE BODY LEAVES IN THE OUTPUT BLOCK: the pairwise interaction of the tile's 27 feature rows. -/
theorem tile_out (c : Dev nD) (i : grid0.Coords) (arg1 : Memref sig .tc .vmem S512x128 .f32) (harg1 : arg1.IsWhole)
    (arg2 : Memref sig .tc .vmem S26x512x128 .f32) (harg2 : arg2.IsWhole) (arg3 : Memref sig .tc .vmem S512x506 .f32) (harg3 : arg3.IsWhole)
    (arg4 : Memref sig .tc .vmem S378x512 .f32) (harg4 : arg4.IsWhole)
    (x0 : Vec Ideal S512x128 .f32) (x1 : Vec Ideal S26x512x128 .f32) :
    out0_A_2 c i arg1 harg1 arg2 harg2 arg3 harg3 arg4 harg4 x0 x1 = interaction (rows x0 x1) := by
  unfold out0_A_2
  rw [View.read_writes_eq_canon _ _ _ (cover0_A_2 c i arg1 harg1 arg2 harg2 arg3 harg3 arg4 harg4 x0 x1)]
  unfold kernelRun0_A
  dsimp only
  rw [View.canon_unit_zero zero_offsets, scratch_read, dense_read]
  exact stored_eq x0 x1

end Cert.KernelIdeal.Tile

end
-- ==== Proof.PairBlock.lean ====
/-
  The interaction is computed batch row by batch row: a block of `T` consecutive batch rows of the whole result is the
  interaction of that block's own feature rows.  (Each result row depends only on the 27 feature rows of its own batch
  row; nothing is shared between rows, so no algebra is involved, only the renaming of the row.)
-/
import proofs.«168496_j1082331758806_2_alg».proof.Proof.PairSpec

noncomputable section

open scoped BigOperators

namespace Cert.PairSpec

open Idealize.ShloMosaic Idealize.ShloMosaic.ValueIdx

/-- If `x0`, `x1` hold batch rows `o … o + T - 1` of `a0`, `a1`, then the interaction of `x0`, `x1` at row `r` is the
    interaction of `a0`, `a1` at row `o + r`, column by column. -/
theorem interaction_block {B T : Nat} (a0 : (⟨2, ![B, 128]⟩ : Shape).Idx → EReal) (a1 : (⟨3, ![26, B, 128]⟩ : Shape).Idx → EReal)
    (x0 : (⟨2, ![T, 128]⟩ : Shape).Idx → EReal) (x1 : (⟨3, ![26, T, 128]⟩ : Shape).Idx → EReal) (o : Nat)
    (ho : ∀ r : Fin T, o + r.val < B)
    (h0 : ∀ (r : Fin T) (d : Fin 128), x0 (ix2 r d) = a0 (ix2 (⟨o + r.val, ho r⟩ : Fin B) d))
    (h1 : ∀ (s : Fin 26) (r : Fin T) (d : Fin 128), x1 (ix3 s r d) = a1 (ix3 s (⟨o + r.val, ho r⟩ : Fin B) d))
    (j : (⟨2, ![T, 506]⟩ : Shape).Idx) (i : (⟨2, ![B, 506]⟩ : Shape).Idx)
    (hi0 : (i 0).val = o + (j 0).val) (hi1 : (i 1).val = (j 1).val) :
    interaction (rows x0 x1) j = interaction (rows a0 a1) i := by
  obtain ⟨r, q, rfl⟩ : ∃ (r : Fin T) (q : Fin 506), j = ix2 r q := ⟨j 0, j 1, eq_ix2 j⟩
  obtain ⟨b, q', rfl⟩ : ∃ (b : Fin B) (q' : Fin 506), i = ix2 b q' := ⟨i 0, i 1, eq_ix2 i⟩
  obtain rfl : b = ⟨o + r.val, ho r⟩ := Fin.ext hi0
  obtain rfl : q' = q := Fin.ext hi1
  have hrows : ∀ (n : Fin 27) (d : Fin 128), rows x0 x1 n r d = rows a0 a1 n ⟨o + r.val, ho r⟩ d := by
    intro n d
    unfold rows
    by_cases h : n.val = 0
    · rw [dif_pos h, dif_pos h]; exact h0 r d
    · rw [dif_neg h, dif_neg h]; exact h1 _ r d
  by_cases hq : q'.val < 128
  · rw [interaction_dense _ _ q' hq, interaction_dense _ _ q' hq]
    exact hrows 0 _
  · have hp : q'.val - 128 < 378 := by have := q'.isLt; omega
    rw [interaction_pair _ _ q' ⟨q'.val - 128, hp⟩ (show q'.val - 128 + 128 = q'.val by omega),
      interaction_pair _ _ q' ⟨q'.val - 128, hp⟩ (show q'.val - 128 + 128 = q'.val by omega)]
    unfold dot
    exact Finset.sum_congr rfl fun d _ => by rw [hrows, hrows]

end Cert.PairSpec

end
-- ==== Proof.KernelValue.lean ====
/-
  From blocks to the array.  The grid has 32 points; point `t` stages batch rows `512 t … 512 t + 511` of both
  argument arrays (all 128 feature entries; all 26 sparse features), and writes back rows `512 t … 512 t + 511` of
  the result (all 506 columns).  What the body leaves in the output block is the interaction of the staged rows
  (`Tile.tile_out`), the interaction is computed row by row (`PairSpec.interaction_block`), and the 32 blocks cover
  the result array: so after the run the result array is the interaction of the argument arrays' feature rows.
-/
import proofs.«168496_j1082331758806_2_alg».proof.Proof.Gen.KernelIdeal.Value
import proofs.«168496_j1082331758806_2_alg».proof.Proof.TileValue
import proofs.«168496_j1082331758806_2_alg».proof.Proof.PairBlock
import Idealize.ShloMosaic.Lib.Pipeline.Value

set_option maxRecDepth 16384

noncomputable section

namespace Cert.KernelIdeal.Blocks

open Cert.KernelIdeal Cert.KernelIdeal.Gen Cert.KernelIdeal.Tile Cert.PairSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 32 grid points: every window's block number along the batch axis is the
    point's number, and 0 along every other axis. -/
theorem idx_facts : ∀ t : Fin cfg0.N, win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0 :=
  (by decide +kernel : ∀ t : Fin grid0.N, _)

theorem point_lt (t : Fin cfg0.N) : t.val < 32 := by
  have hN : cfg0.N = 32 := N_0
  have := t.isLt
  omega

/-- The dense window's block at point `t`: rows `512 t + r` of the dense array. -/
theorem dense_block (c : Dev nD) (t : Fin cfg0.N) (r : Fin 512) (d : Fin 128) :
    (iblk m c 0 t : Vec Ideal S512x128 .f32) (ix2 r d)
      = V m c main_arg0 (ix2 (⟨512 * t.val + r.val, by have := point_lt t; have := r.isLt; omega⟩ : Fin 16384) d) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 128 + 1 * d.val = d.val; rw [e1]; omega

/-- The sparse window's block at point `t`: rows `512 t + r` of every sparse feature. -/
theorem sparse_block (c : Dev nD) (t : Fin cfg0.N) (s : Fin 26) (r : Fin 512) (d : Fin 128) :
    (iblk m c 1 t : Vec Ideal S26x512x128 .f32) (ix3 s r d)
      = V m c main_arg1 (ix3 s (⟨512 * t.val + r.val, by have := point_lt t; have := r.isLt; omega⟩ : Fin 16384) d) := by
  obtain ⟨-, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 26 + 1 * s.val = s.val; rw [e0]; omega
  | ⟨1, _⟩ => show win0_1.index t (1 : Fin 3) * 512 + 1 * r.val = 512 * t.val + r.val; rw [e1]; omega
  | ⟨2, _⟩ => show win0_1.index t (2 : Fin 3) * 128 + 1 * d.val = d.val; rw [e2]; omega

/-- The whole result: the interaction of the argument arrays' feature rows. -/
abbrev whole (c : Dev nD) : S16384x506.Idx → EReal :=
  interaction (rows (V m c main_arg0) (V m c main_arg1))

/-- WHAT POINT `t` WRITES BACK is block `t` of the whole result. -/
theorem flushed_eq (c : Dev nD) (t : Fin cfg0.N) :
    (dats m 0 c).flushed 2 t = ((cfg0.win 2).blk t).view.read (Elt Ideal) (whole m c) := by
  rw [Cert.KernelIdeal.Value.flushed2_A, tile_out]
  obtain ⟨-, -, -, -, -, e0, e1⟩ := idx_facts t
  funext j
  show interaction (rows (iblk m c 0 t : Vec Ideal S512x128 .f32) (iblk m c 1 t : Vec Ideal S26x512x128 .f32)) j
    = interaction (rows (V m c main_arg0) (V m c main_arg1)) (((cfg0.win 2).blk t).view.emb j)
  refine interaction_block (B := 16384) (T := 512) _ _ _ _ (512 * t.val)
    (fun r => by have := point_lt t; have := r.isLt; omega)
    (fun r d => dense_block m c t r d) (fun s r d => sparse_block m c t s r d) j _ ?_ ?_
  · show win0_2.index t (0 : Fin 2) * 512 + 1 * (j 0).val = 512 * t.val + (j 0).val
    rw [e0]; omega
  · show win0_2.index t (1 : Fin 2) * 506 + 1 * (j 1).val = (j 1).val
    rw [e1]; omega

/-- An index of the result array is in point `t`'s block iff each coordinate is in the block's range on its axis. -/
theorem mem_blk (t : Fin cfg0.N) (i : S16384x506.Idx) :
    i ∈ ((cfg0.win 2).blk t).view.set ↔ ∀ a : Fin 2, win0_2.index t a * S512x506.size a ≤ (i a).val
      ∧ (i a).val < win0_2.index t a * S512x506.size a + S512x506.size a := by
  show i ∈ ((View.whole main_v0).slice (win0_2.rect t)).set ↔ _
  rw [View.set_slice_whole, Rect.mem_set_unit]
  exact Iff.rfl

/-- THE RESULT ARRAY after the run: row `b` lies in the block of point `b / 512`, so the blocks cover it. -/
theorem final (c : Dev nD) : (dats m 0 c).arrAt 2 cfg0.N = whole m c :=
  (dats m 0 c).arrAt_eq_of_cover 2 (whole m c) (fun t _ => flushed_eq m c t) fun i => by
    have hN : cfg0.N = 32 := N_0
    have hi0 : (i 0).val < 16384 := (i 0).isLt
    have hi1 : (i 1).val < 506 := (i 1).isLt
    have ht : (i 0).val / 512 < cfg0.N := by rw [hN]; omega
    refine ⟨⟨(i 0).val / 512, ht⟩, flush0_2 _, ?_⟩
    obtain ⟨-, -, -, -, -, e0, e1⟩ := idx_facts ⟨(i 0).val / 512, ht⟩
    rw [mem_blk]
    intro a
    match a with
    | ⟨0, _⟩ =>
      show win0_2.index ⟨(i 0).val / 512, ht⟩ (0 : Fin 2) * 512 ≤ (i 0).val
        ∧ (i 0).val < win0_2.index ⟨(i 0).val / 512, ht⟩ (0 : Fin 2) * 512 + 512
      rw [e0]; dsimp only; omega
    | ⟨1, _⟩ =>
      show win0_2.index ⟨(i 0).val / 512, ht⟩ (1 : Fin 2) * 506 ≤ (i 1).val
        ∧ (i 1).val < win0_2.index ⟨(i 0).val / 512, ht⟩ (1 : Fin 2) * 506 + 506
      rw [e1]; omega

/-- The kernel's run, read: the result array at the interaction of the argument arrays, the arguments unchanged. -/
theorem run : θ_run defs (onTc (τ := τ) (main (F := Ideal))) ⟨m, fun _ => 0, ρ⟩ fun r => ∀ c : Dev nD,
      r.2.mem ((c : Thread nD τ).loc main_v0)
        = interaction (rows (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Blocks

end
-- ==== Proof.RefRun.lean ====
/-
  The reference program's run, read back.  Its @main is a straight line of 21 host operations:
  the two index tables (row number and column number of each of the 378 pairs of the lower
  triangle, diagonal included), the 27 feature rows stacked and moved batch-first, ONE batched
  product of the stack with itself over the feature axis, the gather of the 378 triangle entries,
  and the dense features set in front.  Every weakly fair execution ends with the result buffer at
  the composed term `result` of the two argument arrays, and the arguments unchanged.
-/
import proofs.«168496_j1082331758806_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- @main's 21 operations, in order. -/
abbrev ops : List (HloOp τ sig (Elt F)) :=
  [ nullary main_c (fun i => lit0 (S378.rowMajor i)),
    nullary main_c_0 (constantI S378 1 0#1),
    nullary main_c_1 (fun i => lit1 (S378.rowMajor i)),
    nullary main_c_2 (constantI S378 1 0#1),
    unary main_arg0 main_v0 (broadcastInDim S1x16384x128 ![1, 2] bcast_S16384x128_S1x16384x128_1_2 : (⟨S16384x128, .f32⟩ : BufTy).Contents (Elt F) → (⟨S1x16384x128, .f32⟩ : BufTy).Contents (Elt F)),
    binary main_v0 main_arg1 main_v1 ((fun a b => concatenate S27x16384x128 0 [⟨S1x16384x128, a⟩, ⟨S26x16384x128, b⟩] concatenates_S1x16384x128_S26x16384x128_S27x16384x128_d0) : (⟨S1x16384x128, .f32⟩ : BufTy).Contents (Elt F) → (⟨S26x16384x128, .f32⟩ : BufTy).Contents (Elt F) → (⟨S27x16384x128, .f32⟩ : BufTy).Contents (Elt F)),
    unary main_v1 main_v2 ((transpose S16384x27x128 [1, 0, 2] · transposes_S27x16384x128_S16384x27x128_1_0_2) : (⟨S27x16384x128, .f32⟩ : BufTy).Contents (Elt F) → (⟨S16384x27x128, .f32⟩ : BufTy).Contents (Elt F)),
    binary main_v2 main_v2 main_v3 ((fun l r => Host.dotGeneral dot_S16384x27x128_S16384x27x128_S16384x27x27_2_2_1_1_0_0 none l r) : (⟨S16384x27x128, .f32⟩ : BufTy).Contents (Elt F) → (⟨S16384x27x128, .f32⟩ : BufTy).Contents (Elt F) → (⟨S16384x27x27, .f32⟩ : BufTy).Contents (Elt F)),
    nullary main_c_3 (constantI S_ 32 27#32),
    unary main_c_3 main_v4 (broadcastInDim S378 ![] bcast_S_S378 : (⟨S_, .i32⟩ : BufTy).Contents (Elt F) → (⟨S378, .i32⟩ : BufTy).Contents (Elt F)),
    binary main_c main_v4 main_v5 (addi : (⟨S378, .i32⟩ : BufTy).Contents (Elt F) → (⟨S378, .i32⟩ : BufTy).Contents (Elt F) → (⟨S378, .i32⟩ : BufTy).Contents (Elt F)),
    ternary main_c_0 main_v5 main_c main_v6 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    nullary main_c_4 (constantI S_ 32 27#32),
    unary main_c_4 main_v7 (broadcastInDim S378 ![] bcast_S_S378 : (⟨S_, .i32⟩ : BufTy).Contents (Elt F) → (⟨S378, .i32⟩ : BufTy).Contents (Elt F)),
    binary main_c_1 main_v7 main_v8 (addi : (⟨S378, .i32⟩ : BufTy).Contents (Elt F) → (⟨S378, .i32⟩ : BufTy).Contents (Elt F) → (⟨S378, .i32⟩ : BufTy).Contents (Elt F)),
    ternary main_c_2 main_v8 main_c_1 main_v9 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    unary main_v6 main_v10 (broadcastInDim S378x1 ![0] bcast_S378_S378x1_0 : (⟨S378, .i32⟩ : BufTy).Contents (Elt F) → (⟨S378x1, .i32⟩ : BufTy).Contents (Elt F)),
    unary main_v9 main_v11 (broadcastInDim S378x1 ![0] bcast_S378_S378x1_0 : (⟨S378, .i32⟩ : BufTy).Contents (Elt F) → (⟨S378x1, .i32⟩ : BufTy).Contents (Elt F)),
    binary main_v10 main_v11 main_v12 ((fun a b => concatenate S378x2 1 [⟨S378x1, a⟩, ⟨S378x1, b⟩] concatenates_S378x1_S378x1_S378x2_d1) : (⟨S378x1, .i32⟩ : BufTy).Contents (Elt F) → (⟨S378x1, .i32⟩ : BufTy).Contents (Elt F) → (⟨S378x2, .i32⟩ : BufTy).Contents (Elt F)),
    binary main_v3 main_v12 main_v13 ((fun x i => Host.gather gather_S16384x27x27_S378x2_S16384x378_0_12_n_n_12_1_1638411 x i) : (⟨S16384x27x27, .f32⟩ : BufTy).Contents (Elt F) → (⟨S378x2, .i32⟩ : BufTy).Contents (Elt F) → (⟨S16384x378, .f32⟩ : BufTy).Contents (Elt F)),
    binary main_arg0 main_v13 main_v14 ((fun a b => concatenate S16384x506 1 [⟨S16384x128, a⟩, ⟨S16384x378, b⟩] concatenates_S16384x128_S16384x378_S16384x506_d1) : (⟨S16384x128, .f32⟩ : BufTy).Contents (Elt F) → (⟨S16384x378, .f32⟩ : BufTy).Contents (Elt F) → (⟨S16384x506, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub ..,
    unary_bufs_sub .., binary_bufs_sub .., nullary_bufs_sub .., unary_bufs_sub .., binary_bufs_sub .., ternary_bufs_sub ..,
    nullary_bufs_sub .., unary_bufs_sub .., binary_bufs_sub .., ternary_bufs_sub .., unary_bufs_sub .., unary_bufs_sub ..,
    binary_bufs_sub .., binary_bufs_sub .., binary_bufs_sub ..⟩

/-- One index table as the program builds it: the literal table `lit`, with 27 added where the (all-false) mask asks,
    laid out as a column. -/
def column (lit : Fin 378 → BitVec 32) : IVec S378x1 32 :=
  broadcastInDim S378x1 ![0] bcast_S378_S378x1_0
    (select (constantI S378 1 0#1)
      (addi (fun i => lit (S378.rowMajor i)) (broadcastInDim S378 ![] bcast_S_S378 (constantI S_ 32 27#32)))
      (fun i => lit (S378.rowMajor i)))

/-- The start indices of the gather: row number and column number of each pair, side by side. -/
def pairIdx : IVec S378x2 32 :=
  concatenate S378x2 1 [⟨S378x1, column lit0⟩, ⟨S378x1, column lit1⟩] concatenates_S378x1_S378x1_S378x2_d1

/-- The 27 feature rows of every batch row, batch-first: the dense features as row 0, the 26 sparse ones behind. -/
def stacked (a0 : FVec F S16384x128 .f32) (a1 : FVec F S26x16384x128 .f32) : FVec F S16384x27x128 .f32 :=
  transpose S16384x27x128 [1, 0, 2]
    (concatenate S27x16384x128 0 [⟨S1x16384x128, broadcastInDim S1x16384x128 ![1, 2] bcast_S16384x128_S1x16384x128_1_2 a0⟩,
      ⟨S26x16384x128, a1⟩] concatenates_S1x16384x128_S26x16384x128_S27x16384x128_d0)
    transposes_S27x16384x128_S16384x27x128_1_0_2

/-- All 27 × 27 products of feature rows, per batch row. -/
def gram (a0 : FVec F S16384x128 .f32) (a1 : FVec F S26x16384x128 .f32) : FVec F S16384x27x27 .f32 :=
  Host.dotGeneral dot_S16384x27x128_S16384x27x128_S16384x27x27_2_2_1_1_0_0 none (stacked a0 a1) (stacked a0 a1)

/-- The result: the dense features, then the 378 triangle entries of the products. -/
def result (a0 : FVec F S16384x128 .f32) (a1 : FVec F S26x16384x128 .f32) : FVec F S16384x506 .f32 :=
  concatenate S16384x506 1 [⟨S16384x128, a0⟩,
    ⟨S16384x378, Host.gather gather_S16384x27x27_S378x2_S16384x378_0_12_n_n_12_1_1638411 (gram a0 a1) pairIdx⟩]
    concatenates_S16384x128_S16384x378_S16384x506_d1

/-- On every device, for any float values, from any memory with zero counters: every weakly fair execution of
    @main terminates with the result buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v14).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.RefValue.lean ====
/-
  The reference's result, read at an index: it is the pairwise interaction of the argument arrays' feature rows.

  Read from the outside in.  The last concatenation puts the dense features in columns 0 … 127 and the gathered
  entries behind.  The gather reads, for pair `p`, entry (row number, column number) of the 27 × 27 products of
  batch row `b`; the two numbers are the literal tables' entries (the all-false masks select the tables themselves),
  read signed and clamped into [0, 26].  A product entry (n, n') is the sum over the 128 feature entries of
  row `n` times row `n'` of the stacked features, and stacked row `n` of batch row `b` is the dense feature row for
  `n = 0` and sparse feature `n - 1` otherwise.
-/
import proofs.«168496_j1082331758806_2_alg».proof.Proof.RefRun
import proofs.«168496_j1082331758806_2_alg».proof.Proof.PairSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.RefRun Cert.PairSpec
open Idealize.ShloMosaic Idealize.ShloMosaic.ValueIdx

/-! ## The stacked features -/

/-- Stacked row `n` of batch row `b`: the dense feature row, or sparse feature `n - 1`. -/
theorem stacked_apply (a0 : FVec Ideal S16384x128 .f32) (a1 : FVec Ideal S26x16384x128 .f32)
    (b : Fin 16384) (n : Fin 27) (k : Fin 128) :
    stacked (F := Ideal) a0 a1 (ix3 b n k) = rows a0 a1 n b k := by
  unfold stacked
  rw [transpose_apply [1, 0, 2] _ transposes_S27x16384x128_S16384x27x128_1_0_2 (ix3 b n k) (ix3 n b k)
    (fun c => match c with | ⟨0, _⟩ => rfl | ⟨1, _⟩ => rfl | ⟨2, _⟩ => rfl)]
  unfold rows
  by_cases h : n.val = 0
  · rw [dif_pos h]
    rw [concatenate_pair_apply_left 0 _ _ concatenates_S1x16384x128_S26x16384x128_S27x16384x128_d0 (ix3 n b k) rfl
      (ix3 (0 : Fin 1) b k) (fun c => match c with | ⟨0, _⟩ => h.symm | ⟨1, _⟩ => rfl | ⟨2, _⟩ => rfl)]
    exact broadcastInDim_apply ![1, 2] bcast_S16384x128_S1x16384x128_1_2 a0 (ix3 (0 : Fin 1) b k) (ix2 b k)
      (fun a => match a with | ⟨0, _⟩ => rfl | ⟨1, _⟩ => rfl)
  · rw [dif_neg h]
    exact concatenate_pair_apply_right 0 _ _ concatenates_S1x16384x128_S26x16384x128_S27x16384x128_d0 (ix3 n b k) rfl rfl
      (ix3 (⟨n.val - 1, by omega⟩ : Fin 26) b k)
      (fun c hc => match c, hc with | ⟨0, _⟩, hc => absurd rfl hc | ⟨1, _⟩, _ => rfl | ⟨2, _⟩, _ => rfl)
      (show n.val - 1 + 1 = n.val by omega)

/-! ## The batched product -/

theorem lhs_0 (i : S16384x27x27.Idx) (q : dot_S16384x27x128_S16384x27x128_S16384x27x27_2_2_1_1_0_0.contr.Idx) : (dot_S16384x27x128_S16384x27x128_S16384x27x27_2_2_1_1_0_0.lhsIdx i q 0).val = (i 0).val := by
  unfold DotDims.lhsIdx
  rw [dif_pos (show (0 : Fin S16384x27x128.rank) ∈ dot_S16384x27x128_S16384x27x128_S16384x27x27_2_2_1_1_0_0.lhsBatch by decide)]
  rfl
theorem lhs_1 (i : S16384x27x27.Idx) (q : dot_S16384x27x128_S16384x27x128_S16384x27x27_2_2_1_1_0_0.contr.Idx) : (dot_S16384x27x128_S16384x27x128_S16384x27x27_2_2_1_1_0_0.lhsIdx i q 1).val = (i 1).val := by
  unfold DotDims.lhsIdx
  rw [dif_neg (show ¬(1 : Fin S16384x27x128.rank) ∈ dot_S16384x27x128_S16384x27x128_S16384x27x27_2_2_1_1_0_0.lhsBatch by decide),
    dif_pos (show (1 : Fin S16384x27x128.rank) ∈ dot_S16384x27x128_S16384x27x128_S16384x27x27_2_2_1_1_0_0.lhsNonContracting by decide)]
  rfl
theorem lhs_2 (i : S16384x27x27.Idx) (q : dot_S16384x27x128_S16384x27x128_S16384x27x27_2_2_1_1_0_0.contr.Idx) : (dot_S16384x27x128_S16384x27x128_S16384x27x27_2_2_1_1_0_0.lhsIdx i q 2).val = (q ⟨0, by decide⟩).val :=
  dot_S16384x27x128_S16384x27x128_S16384x27x27_2_2_1_1_0_0.lhsIdx_val_of_single rfl i q
theorem rhs_0 (i : S16384x27x27.Idx) (q : dot_S16384x27x128_S16384x27x128_S16384x27x27_2_2_1_1_0_0.contr.Idx) : (dot_S16384x27x128_S16384x27x128_S16384x27x27_2_2_1_1_0_0.rhsIdx i q 0).val = (i 0).val := by
  unfold DotDims.rhsIdx
  rw [dif_pos (show (0 : Fin S16384x27x128.rank) ∈ dot_S16384x27x128_S16384x27x128_S16384x27x27_2_2_1_1_0_0.rhsBatch by decide)]
  rfl
theorem rhs_1 (i : S16384x27x27.Idx) (q : dot_S16384x27x128_S16384x27x128_S16384x27x27_2_2_1_1_0_0.contr.Idx) : (dot_S16384x27x128_S16384x27x128_S16384x27x27_2_2_1_1_0_0.rhsIdx i q 1).val = (i 2).val := by
  unfold DotDims.rhsIdx
  rw [dif_neg (show ¬(1 : Fin S16384x27x128.rank) ∈ dot_S16384x27x128_S16384x27x128_S16384x27x27_2_2_1_1_0_0.rhsBatch by decide),
    dif_pos (show (1 : Fin S16384x27x128.rank) ∈ dot_S16384x27x128_S16384x27x128_S16384x27x27_2_2_1_1_0_0.rhsNonContracting by decide)]
  rfl
theorem rhs_2 (i : S16384x27x27.Idx) (q : dot_S16384x27x128_S16384x27x128_S16384x27x27_2_2_1_1_0_0.contr.Idx) : (dot_S16384x27x128_S16384x27x128_S16384x27x27_2_2_1_1_0_0.rhsIdx i q 2).val = (q ⟨0, by decide⟩).val :=
  dot_S16384x27x128_S16384x27x128_S16384x27x27_2_2_1_1_0_0.rhsIdx_val_of_single rfl i q

/-- Entry (n, n') of batch row `b`'s products: the inner product of feature rows `n` and `n'`. -/
theorem gram_apply (a0 : FVec Ideal S16384x128 .f32) (a1 : FVec Ideal S26x16384x128 .f32)
    (b : Fin 16384) (n n' : Fin 27) :
    gram (F := Ideal) a0 a1 (ix3 b n n') = dot (rows a0 a1) n n' b := by
  unfold gram dot
  simp only [Host.dotGeneral]
  rw [Ideal.dotGeneral_apply, ← Equiv.sum_comp (contrEquiv1 dot_S16384x27x128_S16384x27x128_S16384x27x27_2_2_1_1_0_0 128 rfl rfl).symm]
  refine Finset.sum_congr rfl fun k _ => ?_
  have hk := contrEquiv1_symm_val dot_S16384x27x128_S16384x27x128_S16384x27x27_2_2_1_1_0_0 128 rfl rfl k
  have el : dot_S16384x27x128_S16384x27x128_S16384x27x27_2_2_1_1_0_0.lhsIdx (ix3 b n n') ((contrEquiv1 dot_S16384x27x128_S16384x27x128_S16384x27x27_2_2_1_1_0_0 128 rfl rfl).symm k) = ix3 b n k :=
    funext fun a => Fin.ext (by
      match a with
      | ⟨0, _⟩ => exact lhs_0 _ _
      | ⟨1, _⟩ => exact lhs_1 _ _
      | ⟨2, _⟩ => exact (lhs_2 _ _).trans hk)
  have er : dot_S16384x27x128_S16384x27x128_S16384x27x27_2_2_1_1_0_0.rhsIdx (ix3 b n n') ((contrEquiv1 dot_S16384x27x128_S16384x27x128_S16384x27x27_2_2_1_1_0_0 128 rfl rfl).symm k) = ix3 b n' k :=
    funext fun a => Fin.ext (by
      match a with
      | ⟨0, _⟩ => exact rhs_0 _ _
      | ⟨1, _⟩ => exact rhs_1 _ _
      | ⟨2, _⟩ => exact (rhs_2 _ _).trans hk)
  rw [el, er, stacked_apply, stacked_apply]

/-! ## The index tables and the gather -/

/-- A table laid out as a column reads, at row `p`, the literal table's entry `p`: the mask is all false. -/
theorem column_apply (lit : Fin 378 → BitVec 32) (p : Fin 378) : column lit (ix2 p (0 : Fin 1)) = lit p := by
  unfold column
  rw [broadcastInDim_apply ![0] bcast_S378_S378x1_0 _ (ix2 p (0 : Fin 1)) (ix1 p) (fun a => match a with | ⟨0, _⟩ => rfl)]
  rw [select_apply]
  show Scalar.select 0#1 _ _ = _
  rw [select_zero]
  exact congrArg lit (Fin.ext (Shape.rowMajor_val_one _))

theorem pairIdx_row (p : Fin 378) : pairIdx (ix2 p (0 : Fin 2)) = lit0 p := by
  unfold pairIdx
  rw [concatenate_pair_apply_left 1 _ _ concatenates_S378x1_S378x1_S378x2_d1 (ix2 p (0 : Fin 2)) rfl (ix2 p (0 : Fin 1))
    (fun c => match c with | ⟨0, _⟩ => rfl | ⟨1, _⟩ => rfl)]
  exact column_apply lit0 p

theorem pairIdx_col (p : Fin 378) : pairIdx (ix2 p (1 : Fin 2)) = lit1 p := by
  unfold pairIdx
  rw [concatenate_pair_apply_right 1 _ _ concatenates_S378x1_S378x1_S378x2_d1 (ix2 p (1 : Fin 2)) rfl rfl (ix2 p (0 : Fin 1))
    (fun c hc => match c, hc with | ⟨0, _⟩, _ => rfl | ⟨1, _⟩, hc => absurd rfl hc) rfl]
  exact column_apply lit1 p

/-- The operand index the gather reads at result index (b, p), axis by axis: the batch row itself … -/
theorem gidx_0 (idx : IVec S378x2 32) (b : Fin 16384) (p : Fin 378) :
    (gather_S16384x27x27_S378x2_S16384x378_0_12_n_n_12_1_1638411.operandIdx (ix2 b p) idx 0).val = b.val := by
  show gather_S16384x27x27_S378x2_S16384x378_0_12_n_n_12_1_1638411.start (ix2 b p) idx 0 + gather_S16384x27x27_S378x2_S16384x378_0_12_n_n_12_1_1638411.batchCoord (ix2 b p) 0 + gather_S16384x27x27_S378x2_S16384x378_0_12_n_n_12_1_1638411.offCoord (ix2 b p) 0 = _
  rw [GatherDims.batchCoord_eq_zero _ _ _ List.not_mem_nil, Nat.add_zero]
  unfold GatherDims.start GatherDims.offCoord
  rw [dif_neg (show ¬(0 : Fin S16384x27x27.rank) ∈ gather_S16384x27x27_S378x2_S16384x378_0_12_n_n_12_1_1638411.startIndexMap by decide),
    dif_pos (show (0 : Fin S16384x27x27.rank) ∈ gather_S16384x27x27_S378x2_S16384x378_0_12_n_n_12_1_1638411.sKept by decide), Nat.zero_add]
  rfl

/-- … the first start-index component of `p`, read signed and clamped into [0, 26] … -/
theorem gidx_1 (idx : IVec S378x2 32) (b : Fin 16384) (p : Fin 378) :
    (gather_S16384x27x27_S378x2_S16384x378_0_12_n_n_12_1_1638411.operandIdx (ix2 b p) idx 1).val = min (idx (ix2 p (0 : Fin 2))).toInt.toNat 26 := by
  show gather_S16384x27x27_S378x2_S16384x378_0_12_n_n_12_1_1638411.start (ix2 b p) idx 1 + gather_S16384x27x27_S378x2_S16384x378_0_12_n_n_12_1_1638411.batchCoord (ix2 b p) 1 + gather_S16384x27x27_S378x2_S16384x378_0_12_n_n_12_1_1638411.offCoord (ix2 b p) 1 = _
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (show (1 : Fin S16384x27x27.rank) ∈ gather_S16384x27x27_S378x2_S16384x378_0_12_n_n_12_1_1638411.startIndexMap by decide)]
  have hsi : gather_S16384x27x27_S378x2_S16384x378_0_12_n_n_12_1_1638411.siIdx (ix2 b p) ⟨List.idxOf (1 : Fin S16384x27x27.rank) gather_S16384x27x27_S378x2_S16384x378_0_12_n_n_12_1_1638411.startIndexMap,
      List.idxOf_lt_length_iff.2 (by decide)⟩ = ix2 p (0 : Fin 2) := by
    funext c; refine Fin.ext ?_
    match c with
    | ⟨0, _⟩ => rfl
    | ⟨1, _⟩ => rfl
  rw [hsi]
  rfl

/-- … and the second. -/
theorem gidx_2 (idx : IVec S378x2 32) (b : Fin 16384) (p : Fin 378) :
    (gather_S16384x27x27_S378x2_S16384x378_0_12_n_n_12_1_1638411.operandIdx (ix2 b p) idx 2).val = min (idx (ix2 p (1 : Fin 2))).toInt.toNat 26 := by
  show gather_S16384x27x27_S378x2_S16384x378_0_12_n_n_12_1_1638411.start (ix2 b p) idx 2 + gather_S16384x27x27_S378x2_S16384x378_0_12_n_n_12_1_1638411.batchCoord (ix2 b p) 2 + gather_S16384x27x27_S378x2_S16384x378_0_12_n_n_12_1_1638411.offCoord (ix2 b p) 2 = _
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (show (2 : Fin S16384x27x27.rank) ∈ gather_S16384x27x27_S378x2_S16384x378_0_12_n_n_12_1_1638411.startIndexMap by decide)]
  have hsi : gather_S16384x27x27_S378x2_S16384x378_0_12_n_n_12_1_1638411.siIdx (ix2 b p) ⟨List.idxOf (2 : Fin S16384x27x27.rank) gather_S16384x27x27_S378x2_S16384x378_0_12_n_n_12_1_1638411.startIndexMap,
      List.idxOf_lt_length_iff.2 (by decide)⟩ = ix2 p (1 : Fin 2) := by
    funext c; refine Fin.ext ?_
    match c with
    | ⟨0, _⟩ => rfl
    | ⟨1, _⟩ => rfl
  rw [hsi]
  rfl

/-- The gather of single entries (row and column both collapsed, the batch axis whole) read at (b, p): the operand at
    batch row `b` and the two start-index components of `p`, each read signed and clamped into [0, 26]. -/
theorem gather_entry_apply (x : FVec Ideal S16384x27x27 .f32) (idx : IVec S378x2 32) (b : Fin 16384) (p : Fin 378) :
    Host.gather gather_S16384x27x27_S378x2_S16384x378_0_12_n_n_12_1_1638411 x idx (ix2 b p)
      = x (ix3 b (⟨min (idx (ix2 p (0 : Fin 2))).toInt.toNat 26, by omega⟩ : Fin 27)
          (⟨min (idx (ix2 p (1 : Fin 2))).toInt.toNat 26, by omega⟩ : Fin 27)) := by
  unfold Host.gather
  refine congrArg x (funext fun a => Fin.ext ?_)
  match a with
  | ⟨0, _⟩ => exact gidx_0 idx b p
  | ⟨1, _⟩ => exact gidx_1 idx b p
  | ⟨2, _⟩ => exact gidx_2 idx b p

/-! ## The result -/

/-- The reference's result is the pairwise interaction of the argument arrays' feature rows. -/
theorem result_eq (a0 : FVec Ideal S16384x128 .f32) (a1 : FVec Ideal S26x16384x128 .f32) :
    result (F := Ideal) a0 a1 = interaction (rows a0 a1) := by
  funext j
  obtain ⟨b, q, rfl⟩ : ∃ (b : Fin 16384) (q : Fin 506), j = ix2 b q := ⟨j 0, j 1, eq_ix2 j⟩
  unfold result
  by_cases hq : q.val < 128
  · rw [interaction_dense _ b q hq]
    rw [concatenate_pair_apply_left 1 _ _ concatenates_S16384x128_S16384x378_S16384x506_d1 (ix2 b q) rfl
      (ix2 b (⟨q.val, hq⟩ : Fin 128)) (fun c => match c with | ⟨0, _⟩ => rfl | ⟨1, _⟩ => rfl)]
    rfl
  · have hp : q.val - 128 < 378 := by have := q.isLt; omega
    rw [interaction_pair _ b q ⟨q.val - 128, hp⟩ (show q.val - 128 + 128 = q.val by omega)]
    rw [concatenate_pair_apply_right 1 _ _ concatenates_S16384x128_S16384x378_S16384x506_d1 (ix2 b q) rfl rfl
      (ix2 b (⟨q.val - 128, hp⟩ : Fin 378))
      (fun c hc => match c, hc with | ⟨0, _⟩, _ => rfl | ⟨1, _⟩, hc => absurd rfl hc)
      (show q.val - 128 + 128 = q.val by omega)]
    rw [gather_entry_apply, gram_apply]
    exact congrArg₂ (fun n n' => dot (rows a0 a1) n n' b)
      (Fin.ext (by show min (pairIdx _).toInt.toNat 26 = min (lit0 _).toInt.toNat 26; rw [pairIdx_row]))
      (Fin.ext (by show min (pairIdx _).toInt.toNat 26 = min (lit1 _).toInt.toNat 26; rw [pairIdx_col]))

end Cert.ReferenceIdeal.RefValue

end
-- ==== Proof.lean ====
/-
  The certificate of a batch-tiled pairwise feature interaction against its whole-array reference.

  Both programs take a dense feature array [16384, 128] and 26 sparse feature arrays [26, 16384, 128], and return
  [16384, 506]: per batch row the dense feature row, then the 378 inner products of the pairs `(i, j)`, `j ≤ i`, of
  the 27 feature rows (dense first), pairs numbered row by row of the lower triangle.

  The kernel works on tiles of 512 batch rows: it transposes each of the 27 feature blocks, and for each pair
  multiplies two of them entry by entry, sums over the 128 feature entries, and stores the 512 sums as one row of a
  [378, 512] scratch; the scratch, transposed back, is set behind the dense block.  The reference stacks the 27
  feature rows per batch row, takes all 27 × 27 inner products in one batched product, and gathers the 378 triangle
  entries with two literal index tables.

  At the ideal instance both results are the ONE function `PairSpec.interaction` of the argument arrays' feature rows:
  every inner product is the same sum over the same 128 entries of the same two factors in the same order, so no
  algebraic law is used and the finiteness precondition is never opened.  The two sides meet on the pair numbering:
  the kernel's store number `p` multiplies features `(i, j)`, and the reference's tables hold `(i, j)` at position
  `p` (`TilePairs`, 378 evaluated look-ups).  The ideal pass rewrote nothing, so `preserves` is `True`.
  The three frames are the generated frame runs (the reference's: its run with the result dropped).
-/
import proofs.«168496_j1082331758806_2_alg».proof.Defs
import proofs.«168496_j1082331758806_2_alg».proof.Proof.Gen.Kernel
import proofs.«168496_j1082331758806_2_alg».proof.Proof.Gen.Kernel.Skeleton
import proofs.«168496_j1082331758806_2_alg».proof.Proof.Gen.Kernel.Launch
import proofs.«168496_j1082331758806_2_alg».proof.Proof.Gen.Kernel.Points
import proofs.«168496_j1082331758806_2_alg».proof.Proof.Gen.Kernel.Frame
import proofs.«168496_j1082331758806_2_alg».proof.Proof.Gen.KernelIdeal
import proofs.«168496_j1082331758806_2_alg».proof.Proof.Gen.KernelIdeal.Skeleton
import proofs.«168496_j1082331758806_2_alg».proof.Proof.Gen.KernelIdeal.Launch
import proofs.«168496_j1082331758806_2_alg».proof.Proof.Gen.KernelIdeal.Points
import proofs.«168496_j1082331758806_2_alg».proof.Proof.Gen.KernelIdeal.Frame
import proofs.«168496_j1082331758806_2_alg».proof.Proof.Gen.KernelIdeal.Value
import proofs.«168496_j1082331758806_2_alg».proof.Proof.Gen.ReferenceIdeal
import proofs.«168496_j1082331758806_2_alg».proof.Proof.Gen.Pre_finite_inputs
import proofs.«168496_j1082331758806_2_alg».proof.Proof.KernelValue
import proofs.«168496_j1082331758806_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- At the ideal instance the kernel's result array ends at the interaction of its argument arrays' feature rows (the
    kernel's run, block by block), and the reference's at the same function of arguments that agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
